-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x43264x5 : Shape := ⟨3, ![128, 43264, 5]⟩
abbrev S_ : Shape := ⟨0, ![]⟩

class Facts : Prop where
  bcast_S_S128x43264x5 : S_.BroadcastsInDim S128x43264x5 (![] : Fin 0 → Fin S128x43264x5.rank)
  reducesTo_S128x43264x5_S_d0_1_2 : S128x43264x5.ReducesTo [0, 1, 2] S_
  h_S_ : 0 < S_.numel

variable [Facts]

def fn {F : FTy → Type} [FloatOps F] (main_arg0 : FVec F S128x43264x5 .f32) (main_arg1 : FVec F S128x43264x5 .f32) : IVec S_ 1 :=
  let main_v0 : FVec F S128x43264x5 .f32 := Host.absf main_arg0
  let main_cst : FVec F S_ .f32 := constant S_ .f32 0x7F800000#32
  let main_v1 : FVec F S128x43264x5 .f32 := broadcastInDim S128x43264x5 ![] bcast_S_S128x43264x5 main_cst
  let main_v2 : IVec S128x43264x5 1 := cmpf .olt main_v0 main_v1
  let main_c : IVec S_ 1 := constantI S_ 1 1#1
  let main_v3 : IVec S_ 1 := (fun x v => Host.reduce IntOp.andi x v reducesTo_S128x43264x5_S_d0_1_2 h_S_) main_v2 main_c
  let main_v4 : FVec F S128x43264x5 .f32 := Host.absf main_arg1
  let main_cst_0 : FVec F S_ .f32 := constant S_ .f32 0x7F800000#32
  let main_v5 : FVec F S128x43264x5 .f32 := broadcastInDim S128x43264x5 ![] bcast_S_S128x43264x5 main_cst_0
  let main_v6 : IVec S128x43264x5 1 := cmpf .olt main_v4 main_v5
  let main_c_1 : IVec S_ 1 := constantI S_ 1 1#1
  let main_v7 : IVec S_ 1 := (fun x v => Host.reduce IntOp.andi x v reducesTo_S128x43264x5_S_d0_1_2 h_S_) main_v6 main_c_1
  let main_v8 : IVec S_ 1 := andi main_v3 main_v7
  main_v8
-- ==== Kernel.lean ====
abbrev S128x43264x5 : Shape := ⟨3, ![128, 43264, 5]⟩
abbrev S1x1 : Shape := ⟨2, ![1, 1]⟩
abbrev S128x1664x5 : Shape := ⟨3, ![128, 1664, 5]⟩
abbrev S128x1664x1 : Shape := ⟨3, ![128, 1664, 1]⟩
abbrev S128x1664 : Shape := ⟨2, ![128, 1664]⟩
abbrev S128x1664x4 : Shape := ⟨3, ![128, 1664, 4]⟩
abbrev S1x128x1664x4 : Shape := ⟨4, ![1, 128, 1664, 4]⟩
abbrev S1 : Shape := ⟨1, ![1]⟩
abbrev S1x1x1x1 : Shape := ⟨4, ![1, 1, 1, 1]⟩
abbrev S1x128x1664 : Shape := ⟨3, ![1, 128, 1664]⟩
abbrev S1x1x1 : Shape := ⟨3, ![1, 1, 1]⟩
abbrev S_ : Shape := ⟨0, ![]⟩

abbrev nBuf : Space → Nat
  | .hbm => 26
  | .vmem => 8
  | .smem => 0
  | _ => 0

abbrev bufTy : (tb : Table) → Fin (tcTables nBuf tb) → BufTy
  | .hbm, ⟨0, _⟩ => ⟨S128x43264x5, .f32⟩
  | .hbm, ⟨1, _⟩ => ⟨S128x43264x5, .f32⟩
  | .hbm, ⟨2, _⟩ => ⟨S1x1, .f32⟩
  | .hbm, ⟨3, _⟩ => ⟨S1x1, .f32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S128x1664x5, .f32⟩
  | .local _ .vmem, ⟨1, _⟩ => ⟨S128x1664x5, .f32⟩
  | .local _ .vmem, ⟨2, _⟩ => ⟨S128x1664x5, .f32⟩
  | .local _ .vmem, ⟨3, _⟩ => ⟨S128x1664x5, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | _, _ => ⟨S128x43264x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![26], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1664x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1664x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S128x1664x5_S128x1664x1_0_0_0 : ∀ a, (![0, 0, 0] : Fin 3 → Nat) a + S128x1664x1.size a ≤ S128x1664x5.size a
  h_S128x1664x1 : 0 < S128x1664x1.numel
  shapeCasts_S128x1664x1_S128x1664 : S128x1664x1.ShapeCasts S128x1664
  inb_S128x1664x5_S128x1664x4_0_0_1 : ∀ a, (![0, 0, 1] : Fin 3 → Nat) a + S128x1664x4.size a ≤ S128x1664x5.size a
  h_S128x1664x4 : 0 < S128x1664x4.numel
  natLt_1_32 : 1 < 32
  shapeCasts_S128x1664_S128x1664x1 : S128x1664.ShapeCasts S128x1664x1
  broadcasts_S128x1664x1_S128x1664x4 : S128x1664x1.Broadcasts S128x1664x4
  shapeCasts_S128x1664x4_S1x128x1664x4 : S128x1664x4.ShapeCasts S1x128x1664x4
  reduces_S1x128x1664x4_S1 : S1x128x1664x4.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  shapeCasts_S128x1664_S1x128x1664 : S128x1664.ShapeCasts S1x128x1664
  reduces_S1x128x1664_S1 : S1x128x1664.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1664x5.size a ≤ S128x43264x5.size a
  hwx0_0 : ∀ i : grid0.Coords, EltTy.bits .f32 = 32 ∨ (Rect.block (s := S128x43264x5) S128x1664x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1664x5.size a ≤ S128x43264x5.size a
  hwx0_1 : ∀ i : grid0.Coords, EltTy.bits .f32 = 32 ∨ (Rect.block (s := S128x43264x5) S128x1664x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_arg0) S128x1664x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1664x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x43264x5 : Shape := ⟨3, ![128, 43264, 5]⟩
abbrev S128x43264x1 : Shape := ⟨3, ![128, 43264, 1]⟩
abbrev S128x43264 : Shape := ⟨2, ![128, 43264]⟩
abbrev S_ : Shape := ⟨0, ![]⟩
abbrev S128x43264x4 : Shape := ⟨3, ![128, 43264, 4]⟩

abbrev nBuf : Space → Nat
  | .hbm => 57
  | .vmem => 0
  | .smem => 0
  | _ => 0

abbrev bufTy : (tb : Table) → Fin (tcTables nBuf tb) → BufTy
  | .hbm, ⟨0, _⟩ => ⟨S128x43264x5, .f32⟩
  | .hbm, ⟨1, _⟩ => ⟨S128x43264x5, .f32⟩
  | .hbm, ⟨2, _⟩ => ⟨S128x43264x1, .f32⟩
  | .hbm, ⟨3, _⟩ => ⟨S128x43264, .f32⟩
  | .hbm, ⟨4, _⟩ => ⟨S_, .f32⟩
  | .hbm, ⟨5, _⟩ => ⟨S128x43264, .f32⟩
  | .hbm, ⟨6, _⟩ => ⟨S128x43264, .i1⟩
  | .hbm, ⟨7, _⟩ => ⟨S128x43264, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S128x43264x4, .f32⟩
  | .hbm, ⟨15, _⟩ => ⟨S128x43264x4, .f32⟩
  | .hbm, ⟨16, _⟩ => ⟨S128x43264x4, .f32⟩
  | .hbm, ⟨17, _⟩ => ⟨S128x43264x4, .f32⟩
  | .hbm, ⟨18, _⟩ => ⟨S128x43264x1, .f32⟩
  | .hbm, ⟨19, _⟩ => ⟨S128x43264x4, .f32⟩
  | .hbm, ⟨20, _⟩ => ⟨S128x43264x4, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S128x43264x1, .f32⟩
  | .hbm, ⟨28, _⟩ => ⟨S128x43264, .f32⟩
  | .hbm, ⟨29, _⟩ => ⟨S128x43264x1, .f32⟩
  | .hbm, ⟨30, _⟩ => ⟨S128x43264, .f32⟩
  | .hbm, ⟨31, _⟩ => ⟨S128x43264, .f32⟩
  | .hbm, ⟨32, _⟩ => ⟨S128x43264, .f32⟩
  | .hbm, ⟨33, _⟩ => ⟨S_, .f32⟩
  | .hbm, ⟨34, _⟩ => ⟨S128x43264, .f32⟩
  | .hbm, ⟨35, _⟩ => ⟨S128x43264, .f32⟩
  | .hbm, ⟨36, _⟩ => ⟨S128x43264, .f32⟩
  | .hbm, ⟨37, _⟩ => ⟨S128x43264, .f32⟩
  | .hbm, ⟨38, _⟩ => ⟨S128x43264, .f32⟩
  | .hbm, ⟨39, _⟩ => ⟨S128x43264, .f32⟩
  | .hbm, ⟨40, _⟩ => ⟨S128x43264, .f32⟩
  | .hbm, ⟨41, _⟩ => ⟨S128x43264, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S128x43264, .f32⟩
  | .hbm, ⟨47, _⟩ => ⟨S128x43264, .f32⟩
  | .hbm, ⟨48, _⟩ => ⟨S128x43264, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S128x43264x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_6 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_7 : Ref sig .tc := ⟨.hbm, 49, rfl⟩
abbrev main_v39 : Ref sig .tc := ⟨.hbm, 50, rfl⟩
abbrev main_cst_8 : Ref sig .tc := ⟨.hbm, 51, rfl⟩
abbrev main_v40 : Ref sig .tc := ⟨.hbm, 52, rfl⟩
abbrev main_cst_9 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]

class Facts₀ : Prop where
  slices_S128x43264x5_S128x43264x1_0_0_0 : S128x43264x5.Slices ![0, 0, 0] S128x43264x1
  shapeCasts_S128x43264x1_S128x43264 : S128x43264x1.ShapeCasts S128x43264
  bcast_S_S128x43264 : S_.BroadcastsInDim S128x43264 (![] : Fin 0 → Fin S128x43264.rank)
  reducesTo_S128x43264_S_d0_1 : S128x43264.ReducesTo [0, 1] S_
  h_S_ : 0 < S_.numel
  slices_S128x43264x5_S128x43264x4_0_0_1 : S128x43264x5.Slices ![0, 0, 1] S128x43264x4
  bcast_S128x43264_S128x43264x1_0_1 : S128x43264.BroadcastsInDim S128x43264x1 (![0, 1] : Fin 2 → Fin S128x43264x1.rank)
  bcast_S128x43264x1_S128x43264x4_0_1_2 : S128x43264x1.BroadcastsInDim S128x43264x4 (![0, 1, 2] : Fin 3 → Fin S128x43264x4.rank)
  reducesTo_S128x43264x4_S_d0_1_2 : S128x43264x4.ReducesTo [0, 1, 2] S_

variable [Facts₀]

class Facts : Prop extends Facts₀ where

variable [Facts]
-- ==== Proof.Pieces.lean ====
import proofs.«135349_j68066641707785_1_alg».proof.Proof.Gen.KernelIdeal.Frame
import Idealize.ShloMosaic.Lib.Pipeline.Value
import Idealize.ShloMosaic.Lib.Tactic
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

/-! # What one grid point leaves in the four running totals

The body reads, from the point's block of the predictions `x` and of the labels `y` (each 128 × 1664 × 5), the
confidence channel (channel 0) and the four box channels (channels 1–4), and adds one number into each of four
1 × 1 totals: the count of selected cells, the masked squared box error, the masked cross-entropy, and the
background term. At the first point each total is first set to zero; at a later point it starts from what the
point before left. This module reads those stores back as terms of the body's arithmetic. -/

namespace Cert.KernelIdeal.Totals

open Cert.KernelIdeal Cert.KernelIdeal.Gen

variable {F : FTy → Type} [FloatOps F]

theorem zero2 : (![0, 0] : Fin 2 → Nat) = fun _ => 0 := funext fun a => by fin_cases a <;> rfl

/-- The confidence channel of a block: channel 0, as a 128 × 1664 × 1 vector. -/
abbrev conf (b : Vec F S128x1664x5 .f32) : Vec F S128x1664x1 .f32 :=
  View.ld b (Rect.unit (s := S128x1664x5) ![0, 0, 0] S128x1664x1.size inb_S128x1664x5_S128x1664x1_0_0_0)

/-- The box channels of a block: channels 1 to 4, as a 128 × 1664 × 4 vector. -/
abbrev coords (b : Vec F S128x1664x5 .f32) : Vec F S128x1664x4 .f32 :=
  View.ld b (Rect.unit (s := S128x1664x5) ![0, 0, 1] S128x1664x4.size inb_S128x1664x5_S128x1664x4_0_0_1)

/-- A later point adds its number to total 0 as the point before left it (`a`). -/
theorem later_2 (c : Dev nD) (i : grid0.Coords) (a1 : Memref sig .tc .vmem S128x1664x5 .f32) (h1 : a1.IsWhole) (a2 : Memref sig .tc .vmem S128x1664x5 .f32) (h2 : a2.IsWhole)
    (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole)
    (hc : ¬cond0_0 i) (x y : Vec F S128x1664x5 .f32) (a2' a3' a4' a5' : Vec F S1x1 .f32) :
    out0_B_2 c i a1 h1 a2 h2 a3 h3 a4 h4 a5 h5 a6 h6 hc x y a2' a3' a4' a5' = k0_pay1 (k0_pay11 (conf y)) a2' := by
  unfold out0_B_2
  rw [View.read_writes_eq_canon _ _ _ (cover0_B_2 c i a1 h1 a2 h2 a3 h3 a4 h4 a5 h5 a6 h6 hc x y a2' a3' a4' a5')]
  unfold kernelRun0_B
  dsimp only
  sl_unfold_words
  rw [View.canon_unit_zero zero2]
  simp only [View.readAt_eq_ld, h1.read_unread, h2.read_unread, h3.read_unread, View.ld_unit_zero (S := S1x1) zero2]

/-- The first point adds its number to total 0 set to zero. -/
theorem first_2 (c : Dev nD) (i : grid0.Coords) (a1 : Memref sig .tc .vmem S128x1664x5 .f32) (h1 : a1.IsWhole) (a2 : Memref sig .tc .vmem S128x1664x5 .f32) (h2 : a2.IsWhole)
    (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole)
    (hc : cond0_0 i) (x y : Vec F S128x1664x5 .f32) :
    out0_A_2 c i a1 h1 a2 h2 a3 h3 a4 h4 a5 h5 a6 h6 hc x y = k0_pay1 (k0_pay11 (conf y)) (k0_pay5 (F := F)) := by
  unfold out0_A_2
  rw [View.read_writes_eq_canon _ _ _ (cover0_A_2 c i a1 h1 a2 h2 a3 h3 a4 h4 a5 h5 a6 h6 hc x y)]
  unfold kernelRun0_A
  dsimp only
  sl_unfold_words
  rw [View.canon_cons_unit_zero (S := S1x1) zero2, View.readCov_unit_zero (S := S1x1) _ zero2]
  simp only [View.readAt_eq_ld, h1.read_unread, h2.read_unread]

/-- A later point adds its number to total 1 as the point before left it (`a`). -/
theorem later_3 (c : Dev nD) (i : grid0.Coords) (a1 : Memref sig .tc .vmem S128x1664x5 .f32) (h1 : a1.IsWhole) (a2 : Memref sig .tc .vmem S128x1664x5 .f32) (h2 : a2.IsWhole)
    (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole)
    (hc : ¬cond0_0 i) (x y : Vec F S128x1664x5 .f32) (a2' a3' a4' a5' : Vec F S1x1 .f32) :
    out0_B_3 c i a1 h1 a2 h2 a3 h3 a4 h4 a5 h5 a6 h6 hc x y a2' a3' a4' a5' = k0_pay2 (k0_pay12 (conf y) (coords x) (coords y)) a3' := by
  unfold out0_B_3
  rw [View.read_writes_eq_canon _ _ _ (cover0_B_3 c i a1 h1 a2 h2 a3 h3 a4 h4 a5 h5 a6 h6 hc x y a2' a3' a4' a5')]
  unfold kernelRun0_B
  dsimp only
  sl_unfold_words
  rw [View.canon_unit_zero zero2]
  simp only [View.readAt_eq_ld, h1.read_unread, h2.read_unread, h4.read_unread, View.ld_unit_zero (S := S1x1) zero2]

/-- The first point adds its number to total 1 set to zero. -/
theorem first_3 (c : Dev nD) (i : grid0.Coords) (a1 : Memref sig .tc .vmem S128x1664x5 .f32) (h1 : a1.IsWhole) (a2 : Memref sig .tc .vmem S128x1664x5 .f32) (h2 : a2.IsWhole)
    (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole)
    (hc : cond0_0 i) (x y : Vec F S128x1664x5 .f32) :
    out0_A_3 c i a1 h1 a2 h2 a3 h3 a4 h4 a5 h5 a6 h6 hc x y = k0_pay2 (k0_pay12 (conf y) (coords x) (coords y)) (k0_pay6 (F := F)) := by
  unfold out0_A_3
  rw [View.read_writes_eq_canon _ _ _ (cover0_A_3 c i a1 h1 a2 h2 a3 h3 a4 h4 a5 h5 a6 h6 hc x y)]
  unfold kernelRun0_A
  dsimp only
  sl_unfold_words
  rw [View.canon_cons_unit_zero (S := S1x1) zero2, View.readCov_unit_zero (S := S1x1) _ zero2]
  simp only [View.readAt_eq_ld, h1.read_unread, h2.read_unread]

/-- A later point adds its number to total 2 as the point before left it (`a`). -/
theorem later_4 (c : Dev nD) (i : grid0.Coords) (a1 : Memref sig .tc .vmem S128x1664x5 .f32) (h1 : a1.IsWhole) (a2 : Memref sig .tc .vmem S128x1664x5 .f32) (h2 : a2.IsWhole)
    (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole)
    (hc : ¬cond0_0 i) (x y : Vec F S128x1664x5 .f32) (a2' a3' a4' a5' : Vec F S1x1 .f32) :
    out0_B_4 c i a1 h1 a2 h2 a3 h3 a4 h4 a5 h5 a6 h6 hc x y a2' a3' a4' a5' = k0_pay3 (k0_pay13 (conf y) (conf x)) a4' := by
  unfold out0_B_4
  rw [View.read_writes_eq_canon _ _ _ (cover0_B_4 c i a1 h1 a2 h2 a3 h3 a4 h4 a5 h5 a6 h6 hc x y a2' a3' a4' a5')]
  unfold kernelRun0_B
  dsimp only
  sl_unfold_words
  rw [View.canon_unit_zero zero2]
  simp only [View.readAt_eq_ld, h1.read_unread, h2.read_unread, h5.read_unread, View.ld_unit_zero (S := S1x1) zero2]

/-- The first point adds its number to total 2 set to zero. -/
theorem first_4 (c : Dev nD) (i : grid0.Coords) (a1 : Memref sig .tc .vmem S128x1664x5 .f32) (h1 : a1.IsWhole) (a2 : Memref sig .tc .vmem S128x1664x5 .f32) (h2 : a2.IsWhole)
    (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole)
    (hc : cond0_0 i) (x y : Vec F S128x1664x5 .f32) :
    out0_A_4 c i a1 h1 a2 h2 a3 h3 a4 h4 a5 h5 a6 h6 hc x y = k0_pay3 (k0_pay13 (conf y) (conf x)) (k0_pay7 (F := F)) := by
  unfold out0_A_4
  rw [View.read_writes_eq_canon _ _ _ (cover0_A_4 c i a1 h1 a2 h2 a3 h3 a4 h4 a5 h5 a6 h6 hc x y)]
  unfold kernelRun0_A
  dsimp only
  sl_unfold_words
  rw [View.canon_cons_unit_zero (S := S1x1) zero2, View.readCov_unit_zero (S := S1x1) _ zero2]
  simp only [View.readAt_eq_ld, h1.read_unread, h2.read_unread]

/-- A later point adds its number to total 3 as the point before left it (`a`). -/
theorem later_5 (c : Dev nD) (i : grid0.Coords) (a1 : Memref sig .tc .vmem S128x1664x5 .f32) (h1 : a1.IsWhole) (a2 : Memref sig .tc .vmem S128x1664x5 .f32) (h2 : a2.IsWhole)
    (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole)
    (hc : ¬cond0_0 i) (x y : Vec F S128x1664x5 .f32) (a2' a3' a4' a5' : Vec F S1x1 .f32) :
    out0_B_5 c i a1 h1 a2 h2 a3 h3 a4 h4 a5 h5 a6 h6 hc x y a2' a3' a4' a5' = k0_pay4 (k0_pay10 (conf x)) a5' := by
  unfold out0_B_5
  rw [View.read_writes_eq_canon _ _ _ (cover0_B_5 c i a1 h1 a2 h2 a3 h3 a4 h4 a5 h5 a6 h6 hc x y a2' a3' a4' a5')]
  unfold kernelRun0_B
  dsimp only
  sl_unfold_words
  rw [View.canon_unit_zero zero2]
  simp only [View.readAt_eq_ld, h1.read_unread, h2.read_unread, h6.read_unread, View.ld_unit_zero (S := S1x1) zero2]

/-- The first point adds its number to total 3 set to zero. -/
theorem first_5 (c : Dev nD) (i : grid0.Coords) (a1 : Memref sig .tc .vmem S128x1664x5 .f32) (h1 : a1.IsWhole) (a2 : Memref sig .tc .vmem S128x1664x5 .f32) (h2 : a2.IsWhole)
    (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole)
    (hc : cond0_0 i) (x y : Vec F S128x1664x5 .f32) :
    out0_A_5 c i a1 h1 a2 h2 a3 h3 a4 h4 a5 h5 a6 h6 hc x y = k0_pay4 (k0_pay10 (conf x)) (k0_pay8 (F := F)) := by
  unfold out0_A_5
  rw [View.read_writes_eq_canon _ _ _ (cover0_A_5 c i a1 h1 a2 h2 a3 h3 a4 h4 a5 h5 a6 h6 hc x y)]
  unfold kernelRun0_A
  dsimp only
  sl_unfold_words
  rw [View.canon_cons_unit_zero (S := S1x1) zero2, View.readCov_unit_zero (S := S1x1) _ zero2]
  simp only [View.readAt_eq_ld, h1.read_unread, h2.read_unread]

end Cert.KernelIdeal.Totals

end
-- ==== Proof.Spec.lean ====
import Idealize.ShloMosaic.PureOps.Ideal
import Idealize.ShloMosaic.PureOps.Ideal.Laws
import Idealize.ShloMosaic.Lib.ValueIdx

/-! # The detection loss as one function of the two arrays

Predictions `x` and labels `y` are 128 × 43264 × 5: per cell a confidence (channel 0) and four box coordinates
(channels 1–4). A cell is SELECTED when its label confidence exceeds 1/2. Four totals over all cells:

* `count`  — the number of selected cells;
* `box`    — the squared coordinate error of the selected cells, summed over the four coordinates;
* `bce`    — the cross-entropy −(t·log p + (1 − t)·log(1 − p)) of the selected cells;
* `bg`     — −log(1 − p) of every cell.

The loss is (1 + 1/count)·box/(4·count) + (1 + 1/count)·bce/count + (1/2)·bg/5537792, 5537792 = 128·43264 being the
number of cells. Everything is over the extended reals: sums commute and associate there without any finiteness
assumption, which is all that regrouping the cells into 26 column tiles of width 1664 needs. -/

noncomputable section

open scoped BigOperators
open Idealize.ShloMosaic Idealize.ShloMosaic.ValueIdx

namespace Cert.DetLoss

/-! ## The literals -/

abbrev zero : EReal := Ideal.ofBits .f32 0x00000000#32
abbrev half : EReal := Ideal.ofBits .f32 0x3F000000#32
abbrev one : EReal := Ideal.ofBits .f32 0x3F800000#32
abbrev four : EReal := Ideal.ofBits .f32 0x40800000#32
/-- The number of cells, 128 · 43264 = 5537792 = 2¹⁵ · 169, exactly a float. -/
abbrev cells : EReal := Ideal.ofBits .f32 0x4AA90000#32

theorem zero_eq : zero = 0 := Ideal.ofBits_zero_f32

/-! ## The selection mask -/

/-- 1 on a cell whose label confidence exceeds 1/2, else 0: the comparison's bit read as an unsigned number. -/
def sel (t : EReal) : EReal := (((Ideal.cmp .ogt t half).toNat : ℝ) : EReal)

/-- The same bit widened to 32 bits and read as a SIGNED number is the same 0 or 1. -/
theorem sel_widened (t : EReal) : ((((Ideal.cmp .ogt t half).setWidth 32).toInt : ℝ) : EReal) = sel t := by
  unfold sel
  have h : ∀ b : BitVec 1, (b.setWidth 32).toInt = (b.toNat : ℤ) := by decide
  rw [h, Int.cast_natCast]

/-! ## One cell's contribution to each total -/

def boxCell (p q t : EReal) : EReal := (p - q) * (p - q) * sel t
def bceCell (p t : EReal) : EReal := -(t * Ideal.log p + (one - t) * Ideal.log1p (-p)) * sel t
def bgCell (p : EReal) : EReal := -Ideal.log1p (-p)

/-- A negation written as a subtraction from zero is the negation. -/
theorem bceCell_sub (p t : EReal) :
    (zero - (t * Ideal.log p + (one - t) * Ideal.log1p (zero - p))) * sel t = bceCell p t := by
  unfold bceCell; rw [zero_eq, zero_sub, zero_sub]

theorem bgCell_sub (p : EReal) : zero - Ideal.log1p (zero - p) = bgCell p := by
  unfold bgCell; rw [zero_eq, zero_sub, zero_sub]

/-! ## The loss from the four totals -/

/-- The loss of the four totals, with the background term's quotient taken before its halving. -/
def loss (count box bce bg : EReal) : EReal :=
  Ideal.div ((one + Ideal.div one count) * box) (count * four)
    + Ideal.div ((one + Ideal.div one count) * bce) count
    + half * Ideal.div bg cells

theorem cells_eq : cells = ((5537792 : ℝ) : EReal) := by
  simp [cells, Ideal.ofBits, Ideal.ieee, -EReal.coe_mul]; norm_num

/-- Halving before or after the division by the number of cells is the same extended real: dividing by a nonzero
    real is multiplying by its reciprocal, and products of extended reals associate. -/
theorem half_div_cells (s : EReal) : Ideal.div (half * s) cells = half * Ideal.div s cells := by
  rw [cells_eq, Ideal.div_coe (by norm_num : (5537792 : ℝ) ≠ 0), Ideal.div_coe (by norm_num : (5537792 : ℝ) ≠ 0), mul_assoc]

/-- The same loss with the background term halved before its quotient. -/
theorem loss_halved_first (count box bce bg : EReal) :
    Ideal.div ((one + Ideal.div one count) * box) (count * four)
      + Ideal.div ((one + Ideal.div one count) * bce) count
      + Ideal.div (half * bg) cells = loss count box bce bg := by
  unfold loss; rw [half_div_cells]

/-! ## The four totals over the whole arrays -/

/-- A 128 × 43264 × 5 array of extended reals. -/
abbrev Arr : Type := (⟨3, ![128, 43264, 5]⟩ : Shape).Idx → EReal

/-- Box channel `k` (of four) is channel `1 + k` (of five). -/
abbrev boxChan (k : Fin 4) : Fin 5 := ⟨1 + k.val, by have := k.isLt; omega⟩

def count (y : Arr) : EReal := ∑ j : (⟨2, ![128, 43264]⟩ : Shape).Idx, sel (y (ix3 (j 0) (j 1) (0 : Fin 5)))
def box (x y : Arr) : EReal :=
  ∑ j : (⟨3, ![128, 43264, 4]⟩ : Shape).Idx,
    boxCell (x (ix3 (j 0) (j 1) (boxChan (j 2)))) (y (ix3 (j 0) (j 1) (boxChan (j 2)))) (y (ix3 (j 0) (j 1) (0 : Fin 5)))
def bce (x y : Arr) : EReal :=
  ∑ j : (⟨2, ![128, 43264]⟩ : Shape).Idx, bceCell (x (ix3 (j 0) (j 1) (0 : Fin 5))) (y (ix3 (j 0) (j 1) (0 : Fin 5)))
def bg (x : Arr) : EReal := ∑ j : (⟨2, ![128, 43264]⟩ : Shape).Idx, bgCell (x (ix3 (j 0) (j 1) (0 : Fin 5)))

/-- The loss of two arrays. -/
def total (x y : Arr) : EReal := loss (count y) (box x y) (bce x y) (bg x)

/-! ## Column tiles

Column `n` of 43264 is column `r` of tile `t`, `n = 1664·t + r`, for exactly one `t < 26` and `r < 1664`. -/

/-- Column `r` of tile `t`. -/
abbrev col (t : Fin 26) (r : Fin 1664) : Fin 43264 := ⟨t.val * 1664 + r.val, by have := t.isLt; have := r.isLt; omega⟩

/-- The cells (row, column) are the (tile, row, column-in-tile) triples. -/
def tiles2 : Fin 26 × (⟨2, ![128, 1664]⟩ : Shape).Idx ≃ (⟨2, ![128, 43264]⟩ : Shape).Idx where
  toFun p := ix2 (p.2 0) (col p.1 (p.2 1))
  invFun j := (⟨(j 1).val / 1664, by have h : (j 1).val < 43264 := (j 1).isLt; omega⟩,
    ix2 (j 0) ⟨(j 1).val % 1664, Nat.mod_lt _ (by norm_num)⟩)
  left_inv p := by
    obtain ⟨t, i⟩ := p
    have h1 : (i 1).val < 1664 := (i 1).isLt
    refine Prod.ext (Fin.ext ?_) (funext fun a => ?_)
    · show (t.val * 1664 + (i 1).val) / 1664 = t.val; omega
    · match a with
      | ⟨0, _⟩ => rfl
      | ⟨1, _⟩ => exact Fin.ext (by show (t.val * 1664 + (i 1).val) % 1664 = (i 1).val; omega)
  right_inv j := by
    funext a
    match a with
    | ⟨0, _⟩ => rfl
    | ⟨1, _⟩ => exact Fin.ext (by show (j 1).val / 1664 * 1664 + (j 1).val % 1664 = (j 1).val; omega)

/-- A sum over all cells is the sum over the tiles of the sums over each tile's cells. -/
theorem sum_tiles2 {M : Type*} [AddCommMonoid M] (f : Fin 128 → Fin 43264 → M) :
    ∑ t : Fin 26, ∑ i : (⟨2, ![128, 1664]⟩ : Shape).Idx, f (i 0) (col t (i 1))
      = ∑ j : (⟨2, ![128, 43264]⟩ : Shape).Idx, f (j 0) (j 1) := by
  rw [← Fintype.sum_prod_type']
  exact Fintype.sum_equiv tiles2 _ _ fun _ => rfl

/-- The same with the four box channels along. -/
def tiles3 : Fin 26 × (⟨3, ![128, 1664, 4]⟩ : Shape).Idx ≃ (⟨3, ![128, 43264, 4]⟩ : Shape).Idx where
  toFun p := ix3 (p.2 0) (col p.1 (p.2 1)) (p.2 2)
  invFun j := (⟨(j 1).val / 1664, by have h : (j 1).val < 43264 := (j 1).isLt; omega⟩,
    ix3 (j 0) ⟨(j 1).val % 1664, Nat.mod_lt _ (by norm_num)⟩ (j 2))
  left_inv p := by
    obtain ⟨t, i⟩ := p
    have h1 : (i 1).val < 1664 := (i 1).isLt
    refine Prod.ext (Fin.ext ?_) (funext fun a => ?_)
    · show (t.val * 1664 + (i 1).val) / 1664 = t.val; omega
    · match a with
      | ⟨0, _⟩ => rfl
      | ⟨1, _⟩ => exact Fin.ext (by show (t.val * 1664 + (i 1).val) % 1664 = (i 1).val; omega)
      | ⟨2, _⟩ => rfl
  right_inv j := by
    funext a
    match a with
    | ⟨0, _⟩ => rfl
    | ⟨1, _⟩ => exact Fin.ext (by show (j 1).val / 1664 * 1664 + (j 1).val % 1664 = (j 1).val; omega)
    | ⟨2, _⟩ => rfl

theorem sum_tiles3 {M : Type*} [AddCommMonoid M] (f : Fin 128 → Fin 43264 → Fin 4 → M) :
    ∑ t : Fin 26, ∑ i : (⟨3, ![128, 1664, 4]⟩ : Shape).Idx, f (i 0) (col t (i 1)) (i 2)
      = ∑ j : (⟨3, ![128, 43264, 4]⟩ : Shape).Idx, f (j 0) (j 1) (j 2) := by
  rw [← Fintype.sum_prod_type']
  exact Fintype.sum_equiv tiles3 _ _ fun _ => rfl

/-! ## A running total

A total that starts at zero plus the first tile's number and then adds one tile's number per step ends at the sum
over the tiles. -/

/-- The running total after step `n`: zero, plus the numbers `a 0, …, a n` added in order. -/
def running (a : ℕ → EReal) : ℕ → EReal
  | 0 => zero + a 0
  | n + 1 => running a n + a (n + 1)

theorem running_eq (a : ℕ → EReal) (n : ℕ) : running a n = ∑ s ∈ Finset.range (n + 1), a s := by
  induction n with
  | zero => rw [running, zero_eq, zero_add, Finset.sum_range_one]
  | succ n ih => rw [running, ih, Finset.sum_range_succ _ (n + 1)]

/-- After the last of 26 steps the running total of numbers given per tile is their sum over the tiles. -/
theorem running_last (p : Fin 26 → EReal) :
    running (fun n => if h : n < 26 then p ⟨n, h⟩ else 0) 25 = ∑ t : Fin 26, p t := by
  rw [running_eq, Finset.sum_range (fun n => if h : n < 26 then p ⟨n, h⟩ else 0)]
  exact Finset.sum_congr rfl fun t _ => dif_pos t.isLt

end Cert.DetLoss

end
-- ==== Proof.LibTotalSum.lean ====
import Idealize.ShloMosaic.PureOps.Ideal.Laws

/-! # Total sums at the extended reals

Two facts about summing every element of a vector, for any shapes. A reshape is a bijection of positions, so it does
not change the sum of all elements. And a float add-reduction over every axis but unit ones, started from the zero
pattern, is the sum of all elements; stated here with the accumulator's side conditions spelt the way a printed kernel
body carries them (the zero word equal to itself), so that the statement meets such a body's term as it stands. -/

noncomputable section

open scoped BigOperators
open Idealize.ShloMosaic

namespace Cert.LibTotalSum

/-- A sum over a reshaped vector is the sum over the vector: a reshape is a bijection of positions. -/
theorem sum_shapeCast {s t : Shape} {M : Type} [AddCommMonoid M] (v : s.Idx → M) (h : s.ShapeCasts t) :
    ∑ j : t.Idx, shapeCast t v h j = ∑ i : s.Idx, v i :=
  Equiv.sum_comp (Shape.reshapeEquiv h) v

/-- An f32 add-reduction into a shape all of whose axes have size one, from the zero pattern, read at the extended
    reals at its one index, is the sum of every element of the source. -/
theorem multiReduction_add_total_f32 {s t : Shape} {axes : List (Fin s.rank)} (src : FVec Ideal s .f32)
    (h : s.Reduces axes t) (ht : ∀ b, t.size b = 1) (j : t.Idx) :
    multiReduction (F := Ideal) .add axes t src 0x00000000#32 h (.inl rfl) rfl j = ∑ i : s.Idx, src i :=
  Ideal.multiReduction_add_total src 0x00000000#32 h ht (.inl rfl) rfl j

end Cert.LibTotalSum

end
-- ==== Proof.TileValues.lean ====
import proofs.«135349_j68066641707785_1_alg».proof.Proof.Pieces
import proofs.«135349_j68066641707785_1_alg».proof.Proof.Spec
import proofs.«135349_j68066641707785_1_alg».proof.Proof.LibTotalSum

noncomputable section

open scoped BigOperators
open Idealize.ShloMosaic Idealize.ShloMosaic.TcCoe Idealize.SL.Sem
open Idealize.ShloMosaic.Pipeline (Dat)

/-! # One tile's numbers, at the extended reals

Each of the four stores of a grid point writes "what the total held, plus this tile's number". This module reads
the tile's number as a sum over the tile's cells of the cell's contribution (`Cert.DetLoss`): the body reshapes a
128 × 1664 block to 1 × 128 × 1664 and reduces all but the unit axis, which at the extended reals is the plain sum
over the block; a reshape only renames the positions summed over (`Cert.LibTotalSum`). -/

namespace Cert.KernelIdeal.Totals

open Cert.KernelIdeal Cert.KernelIdeal.Gen Cert.DetLoss Cert.LibTotalSum Idealize.ShloMosaic.ValueIdx

/-! ## Positions -/

/-- Dropping the trailing unit axis: position (r, s) of 128 × 1664 is position (r, s, 0) of 128 × 1664 × 1. -/
theorem drop_unit_apply {α : Type} (v : S128x1664x1.Idx → α) (i : S128x1664.Idx) :
    shapeCast S128x1664 v shapeCasts_S128x1664x1_S128x1664 i = v (ix3 (i 0) (i 1) (0 : Fin 1)) :=
  shapeCast_apply v shapeCasts_S128x1664x1_S128x1664 i (ix3 (i 0) (i 1) (0 : Fin 1))
    (by rw [Shape.rowMajor_val_three, Shape.rowMajor_val_two]
        show ((i 0).val * 1664 + (i 1).val) * 1 + 0 = (i 0).val * 1664 + (i 1).val; omega)

/-- Adding it back: position (r, s, 0) of 128 × 1664 × 1 is position (r, s) of 128 × 1664. -/
theorem add_unit_apply {α : Type} (u : S128x1664.Idx → α) (r : Fin 128) (s : Fin 1664) :
    shapeCast S128x1664x1 u shapeCasts_S128x1664_S128x1664x1 (ix3 r s (0 : Fin 1)) = u (ix2 r s) :=
  shapeCast_apply u shapeCasts_S128x1664_S128x1664x1 (ix3 r s (0 : Fin 1)) (ix2 r s)
    (by rw [Shape.rowMajor_val_three, Shape.rowMajor_val_two]
        show r.val * 1664 + s.val = (r.val * 1664 + s.val) * 1 + 0; omega)

/-- Repeating a 128 × 1664 × 1 vector along four channels: every channel of (r, s) reads (r, s, 0). -/
theorem repeat4_apply {α : Type} (z : S128x1664x1.Idx → α) (p : S128x1664x4.Idx) :
    broadcastTo S128x1664x4 z broadcasts_S128x1664x1_S128x1664x4 p = z (ix3 (p 0) (p 1) (0 : Fin 1)) :=
  broadcastTo_apply z broadcasts_S128x1664x1_S128x1664x4 p (ix3 (p 0) (p 1) (0 : Fin 1)) (fun a => match a with
    | ⟨0, _⟩ => by show (p 0).val = if (128 : Nat) = 1 then 0 else (p 0).val; rw [if_neg (by decide)]
    | ⟨1, _⟩ => by show (p 1).val = if (1664 : Nat) = 1 then 0 else (p 1).val; rw [if_neg (by decide)]
    | ⟨2, _⟩ => by show 0 = if (1 : Nat) = 1 then 0 else (p 2).val; rw [if_pos rfl])

/-- The confidence channel of a block at (r, s) is the block at (r, s, channel 0). -/
theorem conf_apply (b : Vec Ideal S128x1664x5 .f32) (r : Fin 128) (s : Fin 1664) :
    conf b (ix3 r s (0 : Fin 1)) = b (ix3 r s (0 : Fin 5)) :=
  congrArg b (funext fun a => match a with
    | ⟨0, _⟩ => Fin.ext (by show 0 + 1 * r.val = r.val; omega)
    | ⟨1, _⟩ => Fin.ext (by show 0 + 1 * s.val = s.val; omega)
    | ⟨2, _⟩ => Fin.ext (by show 0 + 1 * 0 = 0; rfl))

/-- Box channel k of a block at (r, s) is the block at (r, s, channel 1 + k). -/
theorem coords_apply (b : Vec Ideal S128x1664x5 .f32) (p : S128x1664x4.Idx) :
    coords b p = b (ix3 (p 0) (p 1) (boxChan (p 2))) :=
  congrArg b (funext fun a => match a with
    | ⟨0, _⟩ => Fin.ext (by show 0 + 1 * (p 0).val = (p 0).val; omega)
    | ⟨1, _⟩ => Fin.ext (by show 0 + 1 * (p 1).val = (p 1).val; omega)
    | ⟨2, _⟩ => Fin.ext (by show 1 + 1 * (p 2).val = 1 + (p 2).val; omega))

/-! ## The body's arithmetic, named -/

section Named
variable {F : FTy → Type} [FloatOps F]

/-- "What the total held, plus the sum of a 128 × 1664 vector": the tail of three of the four stores. -/
def plusSum2 (w : FVec F S128x1664 .f32) (a : Vec F S1x1 .f32) : FVec F S1x1 .f32 :=
  addf (shapeCast S1x1 a shapeCasts_S1x1_S1x1)
    (broadcast S1x1 (extractAt ![0, 0, 0]
      (shapeCast S1x1x1 (multiReduction .add [1, 2] S1 (shapeCast S1x128x1664 w shapeCasts_S128x1664_S1x128x1664)
        0x00000000#32 reduces_S1x128x1664_S1 (.inl rfl) rfl) shapeCasts_S1_S1x1x1) inpos_S1x1x1_p0_0_0))

/-- The same for a 128 × 1664 × 4 vector: the tail of the box store. -/
def plusSum3 (w : FVec F S128x1664x4 .f32) (a : Vec F S1x1 .f32) : FVec F S1x1 .f32 :=
  addf (shapeCast S1x1 a shapeCasts_S1x1_S1x1)
    (broadcast S1x1 (extractAt ![0, 0, 0, 0]
      (shapeCast S1x1x1x1 (multiReduction .add [1, 2, 3] S1 (shapeCast S1x128x1664x4 w shapeCasts_S128x1664x4_S1x128x1664x4)
        0x00000000#32 reduces_S1x128x1664x4_S1 (.inl rfl) rfl) shapeCasts_S1_S1x1x1x1) inpos_S1x1x1x1_p0_0_0_0))

/-- The masked squared box error of a tile, per cell and channel. -/
def boxVec (t : Vec F S128x1664x1 .f32) (p q : Vec F S128x1664x4 .f32) : FVec F S128x1664x4 .f32 :=
  mulf (mulf (subf p q) (subf p q))
    (broadcastTo S128x1664x4 (shapeCast S128x1664x1 (k0_pay11 t) shapeCasts_S128x1664_S128x1664x1) broadcasts_S128x1664x1_S128x1664x4)

/-- The masked cross-entropy of a tile, per cell. -/
def bceVec (t p : Vec F S128x1664x1 .f32) : FVec F S128x1664 .f32 :=
  mulf (subf (broadcast S128x1664 (Scalar.ofBits .f32 0x00000000#32))
      (addf (mulf (k0_pay9 t) (log (k0_pay10 p)))
        (mulf (subf (broadcast S128x1664 (Scalar.ofBits .f32 0x3F800000#32)) (k0_pay9 t))
          (log1p (subf (broadcast S128x1664 (Scalar.ofBits .f32 0x00000000#32)) (k0_pay10 p))))))
    (k0_pay11 t)

/-- The background term of a tile, per cell. -/
def bgVec (p : FVec F S128x1664 .f32) : FVec F S128x1664 .f32 :=
  subf (broadcast S128x1664 (Scalar.ofBits .f32 0x00000000#32))
    (log1p (subf (broadcast S128x1664 (Scalar.ofBits .f32 0x00000000#32)) p))

theorem pay1_eq (t : Vec F S128x1664x1 .f32) (a : Vec F S1x1 .f32) : k0_pay1 (k0_pay11 t) a = plusSum2 (k0_pay11 t) a := rfl
theorem pay2_eq (t : Vec F S128x1664x1 .f32) (p q : Vec F S128x1664x4 .f32) (a : Vec F S1x1 .f32) :
    k0_pay2 (k0_pay12 t p q) a = plusSum3 (boxVec t p q) a := rfl
theorem pay3_eq (t p : Vec F S128x1664x1 .f32) (a : Vec F S1x1 .f32) : k0_pay3 (k0_pay13 t p) a = plusSum2 (bceVec t p) a := rfl
theorem pay4_eq (p : Vec F S128x1664x1 .f32) (a : Vec F S1x1 .f32) : k0_pay4 (k0_pay10 p) a = plusSum2 (bgVec (k0_pay10 p)) a := rfl

end Named

/-! ## At the extended reals -/

theorem plusSum2_apply (w : FVec Ideal S128x1664 .f32) (a : Vec Ideal S1x1 .f32) (j : S1x1.Idx) :
    plusSum2 w a j = a j + ∑ i : S128x1664.Idx, w i := by
  have hR : ∀ j' : S1.Idx, multiReduction (F := Ideal) .add [1, 2] S1 (shapeCast S1x128x1664 w shapeCasts_S128x1664_S1x128x1664)
      0x00000000#32 reduces_S1x128x1664_S1 (.inl rfl) rfl j' = ∑ i : S128x1664.Idx, w i := fun j' =>
    (multiReduction_add_total_f32 (shapeCast S1x128x1664 w shapeCasts_S128x1664_S1x128x1664)
      reduces_S1x128x1664_S1 (by decide) j').trans (sum_shapeCast w shapeCasts_S128x1664_S1x128x1664)
  unfold plusSum2
  generalize multiReduction (F := Ideal) .add [1, 2] S1 (shapeCast S1x128x1664 w shapeCasts_S128x1664_S1x128x1664)
      0x00000000#32 reduces_S1x128x1664_S1 (.inl rfl) rfl = R at hR ⊢
  rw [shapeCast_self]
  exact congrArg (a j + ·) (hR _)

theorem plusSum3_apply (w : FVec Ideal S128x1664x4 .f32) (a : Vec Ideal S1x1 .f32) (j : S1x1.Idx) :
    plusSum3 w a j = a j + ∑ i : S128x1664x4.Idx, w i := by
  have hR : ∀ j' : S1.Idx, multiReduction (F := Ideal) .add [1, 2, 3] S1 (shapeCast S1x128x1664x4 w shapeCasts_S128x1664x4_S1x128x1664x4)
      0x00000000#32 reduces_S1x128x1664x4_S1 (.inl rfl) rfl j' = ∑ i : S128x1664x4.Idx, w i := fun j' =>
    (multiReduction_add_total_f32 (shapeCast S1x128x1664x4 w shapeCasts_S128x1664x4_S1x128x1664x4)
      reduces_S1x128x1664x4_S1 (by decide) j').trans (sum_shapeCast w shapeCasts_S128x1664x4_S1x128x1664x4)
  unfold plusSum3
  generalize multiReduction (F := Ideal) .add [1, 2, 3] S1 (shapeCast S1x128x1664x4 w shapeCasts_S128x1664x4_S1x128x1664x4)
      0x00000000#32 reduces_S1x128x1664x4_S1 (.inl rfl) rfl = R at hR ⊢
  rw [shapeCast_self]
  exact congrArg (a j + ·) (hR _)

/-- The mask of a cell, as the body computes it (a compare, widened, read signed), is `sel` of the label confidence. -/
theorem mask_apply (t : Vec Ideal S128x1664x1 .f32) (i : S128x1664.Idx) :
    k0_pay11 t i = sel (t (ix3 (i 0) (i 1) (0 : Fin 1))) := by
  have e : k0_pay11 t i
      = ((((Ideal.cmp .ogt (shapeCast S128x1664 t shapeCasts_S128x1664x1_S128x1664 i) half).setWidth 32).toInt : ℝ) : EReal) := rfl
  rw [e, drop_unit_apply]
  exact sel_widened _

theorem boxVec_apply (t : Vec Ideal S128x1664x1 .f32) (p q : Vec Ideal S128x1664x4 .f32) (i : S128x1664x4.Idx) :
    boxVec t p q i = boxCell (p i) (q i) (t (ix3 (i 0) (i 1) (0 : Fin 1))) := by
  have e : boxVec t p q i = (p i - q i) * (p i - q i)
      * broadcastTo S128x1664x4 (shapeCast S128x1664x1 (k0_pay11 t) shapeCasts_S128x1664_S128x1664x1) broadcasts_S128x1664x1_S128x1664x4 i := rfl
  have k : broadcastTo S128x1664x4 (shapeCast S128x1664x1 (k0_pay11 t) shapeCasts_S128x1664_S128x1664x1) broadcasts_S128x1664x1_S128x1664x4 i
      = sel (t (ix3 (i 0) (i 1) (0 : Fin 1))) :=
    (repeat4_apply (shapeCast S128x1664x1 (k0_pay11 t) shapeCasts_S128x1664_S128x1664x1) i).trans
      ((add_unit_apply (k0_pay11 t) (i 0) (i 1)).trans (mask_apply t (ix2 (i 0) (i 1))))
  rw [e, k]
  rfl

theorem bceVec_apply (t p : Vec Ideal S128x1664x1 .f32) (i : S128x1664.Idx) :
    bceVec t p i = bceCell (p (ix3 (i 0) (i 1) (0 : Fin 1))) (t (ix3 (i 0) (i 1) (0 : Fin 1))) := by
  have e : bceVec t p i = (zero - (k0_pay9 t i * Ideal.log (k0_pay10 p i) + (one - k0_pay9 t i) * Ideal.log1p (zero - k0_pay10 p i)))
      * k0_pay11 t i := rfl
  rw [e, mask_apply, show k0_pay9 t i = t (ix3 (i 0) (i 1) (0 : Fin 1)) from drop_unit_apply t i,
    show k0_pay10 p i = p (ix3 (i 0) (i 1) (0 : Fin 1)) from drop_unit_apply p i]
  exact bceCell_sub _ _

theorem bgVec_apply (p : Vec Ideal S128x1664x1 .f32) (i : S128x1664.Idx) :
    bgVec (k0_pay10 p) i = bgCell (p (ix3 (i 0) (i 1) (0 : Fin 1))) := by
  have e : bgVec (k0_pay10 p) i = zero - Ideal.log1p (zero - k0_pay10 p i) := rfl
  rw [e, show k0_pay10 p i = p (ix3 (i 0) (i 1) (0 : Fin 1)) from drop_unit_apply p i]
  exact bgCell_sub _

/-! ## One tile's four numbers, from its two blocks -/

def countTile (y : Vec Ideal S128x1664x5 .f32) : EReal :=
  ∑ i : S128x1664.Idx, sel (y (ix3 (i 0) (i 1) (0 : Fin 5)))
def boxTile (x y : Vec Ideal S128x1664x5 .f32) : EReal :=
  ∑ i : S128x1664x4.Idx, boxCell (x (ix3 (i 0) (i 1) (boxChan (i 2)))) (y (ix3 (i 0) (i 1) (boxChan (i 2)))) (y (ix3 (i 0) (i 1) (0 : Fin 5)))
def bceTile (x y : Vec Ideal S128x1664x5 .f32) : EReal :=
  ∑ i : S128x1664.Idx, bceCell (x (ix3 (i 0) (i 1) (0 : Fin 5))) (y (ix3 (i 0) (i 1) (0 : Fin 5)))
def bgTile (x : Vec Ideal S128x1664x5 .f32) : EReal :=
  ∑ i : S128x1664.Idx, bgCell (x (ix3 (i 0) (i 1) (0 : Fin 5)))

theorem count_store (y : Vec Ideal S128x1664x5 .f32) (a : Vec Ideal S1x1 .f32) (j : S1x1.Idx) :
    k0_pay1 (k0_pay11 (conf y)) a j = a j + countTile y := by
  rw [pay1_eq, plusSum2_apply]
  exact congrArg (a j + ·) (Finset.sum_congr rfl fun i _ =>
    (mask_apply (conf y) i).trans (congrArg sel (conf_apply y (i 0) (i 1))))

theorem box_store (x y : Vec Ideal S128x1664x5 .f32) (a : Vec Ideal S1x1 .f32) (j : S1x1.Idx) :
    k0_pay2 (k0_pay12 (conf y) (coords x) (coords y)) a j = a j + boxTile x y := by
  rw [pay2_eq, plusSum3_apply]
  exact congrArg (a j + ·) (Finset.sum_congr rfl fun i _ =>
    (boxVec_apply (conf y) (coords x) (coords y) i).trans
      (congr (congr (congrArg boxCell (coords_apply x i)) (coords_apply y i)) (conf_apply y (i 0) (i 1))))

theorem bce_store (x y : Vec Ideal S128x1664x5 .f32) (a : Vec Ideal S1x1 .f32) (j : S1x1.Idx) :
    k0_pay3 (k0_pay13 (conf y) (conf x)) a j = a j + bceTile x y := by
  rw [pay3_eq, plusSum2_apply]
  exact congrArg (a j + ·) (Finset.sum_congr rfl fun i _ =>
    (bceVec_apply (conf y) (conf x) i).trans
      (congr (congrArg bceCell (conf_apply x (i 0) (i 1))) (conf_apply y (i 0) (i 1))))

theorem bg_store (x : Vec Ideal S128x1664x5 .f32) (a : Vec Ideal S1x1 .f32) (j : S1x1.Idx) :
    k0_pay4 (k0_pay10 (conf x)) a j = a j + bgTile x := by
  rw [pay4_eq, plusSum2_apply]
  exact congrArg (a j + ·) (Finset.sum_congr rfl fun i _ =>
    (bgVec_apply (conf x) i).trans (congrArg bgCell (conf_apply x (i 0) (i 1))))

/-- The zero the first point stores is the extended real zero's pattern. -/
theorem zeroed (j : S1x1.Idx) : (k0_pay5 (F := Ideal)) j = zero ∧ (k0_pay6 (F := Ideal)) j = zero
    ∧ (k0_pay7 (F := Ideal)) j = zero ∧ (k0_pay8 (F := Ideal)) j = zero := ⟨rfl, rfl, rfl, rfl⟩

end Cert.KernelIdeal.Totals

end
-- ==== Proof.Accumulate.lean ====
import proofs.«135349_j68066641707785_1_alg».proof.Proof.TileValues

noncomputable section

open scoped BigOperators
open Idealize.ShloMosaic Idealize.ShloMosaic.TcCoe Idealize.SL.Sem
open Idealize.ShloMosaic.Pipeline (Dat)

/-! # The four totals after each grid point

The grid has 26 points, one per column tile. The first point sets each total to zero and adds its tile's number;
every later point adds its tile's number to what the point before left. So after point `n` each total is the
running total of the tile numbers 0, …, n — by induction on the point. -/

namespace Cert.KernelIdeal.Totals

open Cert.KernelIdeal Cert.KernelIdeal.Gen Cert.DetLoss Idealize.ShloMosaic.ValueIdx

/-! ## One point, all four stores -/

theorem first_all (c : Dev nD) (i : grid0.Coords) (a1 : Memref sig .tc .vmem S128x1664x5 .f32) (h1 : a1.IsWhole) (a2 : Memref sig .tc .vmem S128x1664x5 .f32) (h2 : a2.IsWhole)
    (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole)
    (hc : cond0_0 i) (x y : Vec Ideal S128x1664x5 .f32) :
    (out0_A_2 c i a1 h1 a2 h2 a3 h3 a4 h4 a5 h5 a6 h6 hc x y, out0_A_3 c i a1 h1 a2 h2 a3 h3 a4 h4 a5 h5 a6 h6 hc x y, out0_A_4 c i a1 h1 a2 h2 a3 h3 a4 h4 a5 h5 a6 h6 hc x y, out0_A_5 c i a1 h1 a2 h2 a3 h3 a4 h4 a5 h5 a6 h6 hc x y)
      = ((fun _ => zero + countTile y : Vec Ideal S1x1 .f32), (fun _ => zero + boxTile x y : Vec Ideal S1x1 .f32),
          (fun _ => zero + bceTile x y : Vec Ideal S1x1 .f32), (fun _ => zero + bgTile x : Vec Ideal S1x1 .f32)) := by
  rw [first_2, first_3, first_4, first_5]
  exact congr (congrArg Prod.mk (funext fun j => count_store y _ j))
    (congr (congrArg Prod.mk (funext fun j => box_store x y _ j))
      (congr (congrArg Prod.mk (funext fun j => bce_store x y _ j)) (funext fun j => bg_store x _ j)))

theorem later_all (c : Dev nD) (i : grid0.Coords) (a1 : Memref sig .tc .vmem S128x1664x5 .f32) (h1 : a1.IsWhole) (a2 : Memref sig .tc .vmem S128x1664x5 .f32) (h2 : a2.IsWhole)
    (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole)
    (hc : ¬cond0_0 i) (x y : Vec Ideal S128x1664x5 .f32) (r2 r3 r4 r5 : EReal) :
    (out0_B_2 c i a1 h1 a2 h2 a3 h3 a4 h4 a5 h5 a6 h6 hc x y (fun _ => r2) (fun _ => r3) (fun _ => r4) (fun _ => r5),
     out0_B_3 c i a1 h1 a2 h2 a3 h3 a4 h4 a5 h5 a6 h6 hc x y (fun _ => r2) (fun _ => r3) (fun _ => r4) (fun _ => r5),
     out0_B_4 c i a1 h1 a2 h2 a3 h3 a4 h4 a5 h5 a6 h6 hc x y (fun _ => r2) (fun _ => r3) (fun _ => r4) (fun _ => r5),
     out0_B_5 c i a1 h1 a2 h2 a3 h3 a4 h4 a5 h5 a6 h6 hc x y (fun _ => r2) (fun _ => r3) (fun _ => r4) (fun _ => r5))
      = ((fun _ => r2 + countTile y : Vec Ideal S1x1 .f32), (fun _ => r3 + boxTile x y : Vec Ideal S1x1 .f32),
          (fun _ => r4 + bceTile x y : Vec Ideal S1x1 .f32), (fun _ => r5 + bgTile x : Vec Ideal S1x1 .f32)) := by
  rw [later_2, later_3, later_4, later_5]
  exact congr (congrArg Prod.mk (funext fun j => count_store y _ j))
    (congr (congrArg Prod.mk (funext fun j => box_store x y _ j))
      (congr (congrArg Prod.mk (funext fun j => bce_store x y _ j)) (funext fun j => bg_store x _ j)))

/-! ## The tile numbers by step, and the invariant -/

variable (m : (ℓ : Loc nD τ sig) → Buf (Elt Ideal) ℓ)

/-- Tile `n`'s numbers, from the blocks the two input windows hold at point `n` (zero past the grid). -/
def countAt (c : Dev nD) (n : ℕ) : EReal := if h : n < cfg0.N then countTile (iblk m c 1 ⟨n, h⟩) else 0
def boxAt (c : Dev nD) (n : ℕ) : EReal := if h : n < cfg0.N then boxTile (iblk m c 0 ⟨n, h⟩) (iblk m c 1 ⟨n, h⟩) else 0
def bceAt (c : Dev nD) (n : ℕ) : EReal := if h : n < cfg0.N then bceTile (iblk m c 0 ⟨n, h⟩) (iblk m c 1 ⟨n, h⟩) else 0
def bgAt (c : Dev nD) (n : ℕ) : EReal := if h : n < cfg0.N then bgTile (iblk m c 0 ⟨n, h⟩) else 0

/-- After point `n` the four staging buffers hold the running totals of the tile numbers up to `n`. -/
theorem totals_after (c : Dev nD) : ∀ (n : ℕ) (h : n < cfg0.N), outsAt0 m c n h
      = ((fun _ => running (countAt m c) n : Vec Ideal S1x1 .f32), (fun _ => running (boxAt m c) n : Vec Ideal S1x1 .f32),
          (fun _ => running (bceAt m c) n : Vec Ideal S1x1 .f32), (fun _ => running (bgAt m c) n : Vec Ideal S1x1 .f32))
  | 0, h => by
    have k2 : countAt m c 0 = countTile (iblk m c 1 ⟨0, h⟩) := dif_pos h
    have k3 : boxAt m c 0 = boxTile (iblk m c 0 ⟨0, h⟩) (iblk m c 1 ⟨0, h⟩) := dif_pos h
    have k4 : bceAt m c 0 = bceTile (iblk m c 0 ⟨0, h⟩) (iblk m c 1 ⟨0, h⟩) := dif_pos h
    have k5 : bgAt m c 0 = bgTile (iblk m c 0 ⟨0, h⟩) := dif_pos h
    refine ((outsAt0_A m c ⟨0, h⟩ rfl).trans (first_all c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩)
      ((hcond0_0 ⟨0, h⟩).mpr rfl) (iblk m c 0 ⟨0, h⟩) (iblk m c 1 ⟨0, h⟩))).trans ?_
    show _ = ((fun _ => zero + countAt m c 0 : Vec Ideal S1x1 .f32), (fun _ => zero + boxAt m c 0 : Vec Ideal S1x1 .f32),
      (fun _ => zero + bceAt m c 0 : Vec Ideal S1x1 .f32), (fun _ => zero + bgAt m c 0 : Vec Ideal S1x1 .f32))
    rw [k2, k3, k4, k5]
  | n + 1, h => by
    have hN : cfg0.N = 26 := N_0
    have hB : ¬(⟨n + 1, h⟩ : Fin cfg0.N).val % 26 = 0 := by dsimp only; omega
    have k2 : countAt m c (n + 1) = countTile (iblk m c 1 ⟨n + 1, h⟩) := dif_pos h
    have k3 : boxAt m c (n + 1) = boxTile (iblk m c 0 ⟨n + 1, h⟩) (iblk m c 1 ⟨n + 1, h⟩) := dif_pos h
    have k4 : bceAt m c (n + 1) = bceTile (iblk m c 0 ⟨n + 1, h⟩) (iblk m c 1 ⟨n + 1, h⟩) := dif_pos h
    have k5 : bgAt m c (n + 1) = bgTile (iblk m c 0 ⟨n + 1, h⟩) := dif_pos h
    have ih : outsAt0 m c ((⟨n + 1, h⟩ : Fin cfg0.N).val - 1) (Nat.lt_of_le_of_lt (Nat.sub_le _ _) (⟨n + 1, h⟩ : Fin cfg0.N).isLt) = _ :=
      totals_after c n (Nat.lt_of_succ_lt h)
    rw [outsAt0_B m c ⟨n + 1, h⟩ hB, ih]
    refine (later_all c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩)
      (fun h' => hB ((hcond0_0 ⟨n + 1, h⟩).mp h')) (iblk m c 0 ⟨n + 1, h⟩) (iblk m c 1 ⟨n + 1, h⟩)
      (running (countAt m c) n) (running (boxAt m c) n) (running (bceAt m c) n) (running (bgAt m c) n)).trans ?_
    show _ = ((fun _ => running (countAt m c) n + countAt m c (n + 1) : Vec Ideal S1x1 .f32),
      (fun _ => running (boxAt m c) n + boxAt m c (n + 1) : Vec Ideal S1x1 .f32),
      (fun _ => running (bceAt m c) n + bceAt m c (n + 1) : Vec Ideal S1x1 .f32),
      (fun _ => running (bgAt m c) n + bgAt m c (n + 1) : Vec Ideal S1x1 .f32))
    rw [k2, k3, k4, k5]

end Cert.KernelIdeal.Totals

end
-- ==== Proof.Tail.lean ====
import proofs.«135349_j68066641707785_1_alg».proof.Proof.Gen.KernelIdeal.Frame
import proofs.«135349_j68066641707785_1_alg».proof.Proof.Spec
import Idealize.ShloMosaic.Lib.StableHlo.Run

noncomputable section

open scoped BigOperators
open Idealize.ShloMosaic Idealize.ShloMosaic.TcCoe Idealize.SL.Sem
open Idealize.ShloMosaic.Pipeline (Dat)

/-! # The lines after the region

After the region the program reshapes the four 1 × 1 result arrays to scalars and combines them:
(1 + 1/a₀)·a₁/(a₀·4) + (1 + 1/a₀)·a₂/a₀ + (½·a₃)/5537792. This module names that combination as one function of the
four arrays, reads it off the program's lines for any contents of the buffers, and evaluates it at constant arrays. -/

namespace Cert.KernelIdeal.Totals

open Cert.KernelIdeal Cert.KernelIdeal.Gen Cert.DetLoss

section
variable {F : FTy → Type} [FloatOps F]

/-- The combination of the four result arrays, as the lines after the region compute it. -/
def hostTail (a0 a1 a2 a3 : (⟨S1x1, .f32⟩ : BufTy).Contents (Elt F)) : (⟨S_, .f32⟩ : BufTy).Contents (Elt F) :=
  addf
    (addf
      (Host.divf
        (mulf (addf (constant (F := F) S_ .f32 0x3F800000#32)
            (Host.divf (constant (F := F) S_ .f32 0x3F800000#32) (shapeCast S_ a0 shapeCasts_S1x1_S_)))
          (shapeCast S_ a1 shapeCasts_S1x1_S_))
        (mulf (shapeCast S_ a0 shapeCasts_S1x1_S_) (constant (F := F) S_ .f32 0x40800000#32)))
      (Host.divf
        (mulf (addf (constant (F := F) S_ .f32 0x3F800000#32)
            (Host.divf (constant (F := F) S_ .f32 0x3F800000#32) (shapeCast S_ a0 shapeCasts_S1x1_S_)))
          (shapeCast S_ a2 shapeCasts_S1x1_S_))
        (shapeCast S_ a0 shapeCasts_S1x1_S_)))
    (Host.divf (mulf (constant (F := F) S_ .f32 0x3F000000#32) (shapeCast S_ a3 shapeCasts_S1x1_S_))
      (constant (F := F) S_ .f32 0x4AA90000#32))

set_option maxHeartbeats 2000000 in
/-- Whatever the buffers hold when the lines start, the result buffer ends at the combination of the four result
    arrays' contents. -/
theorem tail_after (Vv : Valuation τ sig (Elt F)) :
    StableHlo.after (hostOps1 (F := F)) Vv (Proc.devRef .tc main_v15)
      = hostTail (Vv (Proc.devRef .tc main_v0_0)) (Vv (Proc.devRef .tc main_v0_1)) (Vv (Proc.devRef .tc main_v0_2))
          (Vv (Proc.devRef .tc main_v0_3)) := by
  after_results_simp
  rfl

end

/-- At constant arrays the combination is the loss of the four constants (the background term halved before its
    quotient, which is the same extended real). -/
theorem hostTail_const (r0 r1 r2 r3 : EReal) :
    hostTail (F := Ideal) (fun _ => r0) (fun _ => r1) (fun _ => r2) (fun _ => r3) = fun _ => loss r0 r1 r2 r3 := by
  funext i
  exact loss_halved_first r0 r1 r2 r3

end Cert.KernelIdeal.Totals

end
-- ==== Proof.Result.lean ====
import proofs.«135349_j68066641707785_1_alg».proof.Proof.Accumulate
import proofs.«135349_j68066641707785_1_alg».proof.Proof.Tail

noncomputable section

open scoped BigOperators
open Idealize.ShloMosaic Idealize.ShloMosaic.TcCoe Idealize.SL.Sem
open Idealize.ShloMosaic.Pipeline (Dat)

/-! # The kernel's result

Each total's 1 × 1 window has one block, the whole array, written back once, after the last grid point; so each
result array ends at the running total after point 25. The lines after the region reshape the four 1 × 1 arrays to
scalars and combine them into the loss. -/

namespace Cert.KernelIdeal.Totals

open Cert.KernelIdeal Cert.KernelIdeal.Gen Cert.DetLoss Idealize.ShloMosaic.ValueIdx

variable (m : (ℓ : Loc nD τ sig) → Buf (Elt Ideal) ℓ) (ρ : Dev nD → PrngReg)

theorem last_lt : 25 < cfg0.N := by rw [show cfg0.N = 26 from N_0]; decide

/-- The grid has a point numbered 25, its last; named without being computed with. -/
theorem exists_last : ∃ t : Fin cfg0.N, t.val = 25 := ⟨⟨25, last_lt⟩, rfl⟩

/-- Every output window's block index is (0, 0) and its block 1 × 1, at every point. -/
theorem out_blocks : ∀ t : Fin cfg0.N,
    (∀ a : Fin 2, win0_2.index t a = 0 ∧ win0_2.xsize (grid0.coords t) a = 1)
    ∧ (∀ a : Fin 2, win0_3.index t a = 0 ∧ win0_3.xsize (grid0.coords t) a = 1)
    ∧ (∀ a : Fin 2, win0_4.index t a = 0 ∧ win0_4.xsize (grid0.coords t) a = 1)
    ∧ (∀ a : Fin 2, win0_5.index t a = 0 ∧ win0_5.xsize (grid0.coords t) a = 1) :=
  (by decide +kernel : ∀ t : Fin grid0.N,
    (∀ a : Fin 2, win0_2.index t a = 0 ∧ win0_2.xsize (grid0.coords t) a = 1)
    ∧ (∀ a : Fin 2, win0_3.index t a = 0 ∧ win0_3.xsize (grid0.coords t) a = 1)
    ∧ (∀ a : Fin 2, win0_4.index t a = 0 ∧ win0_4.xsize (grid0.coords t) a = 1)
    ∧ (∀ a : Fin 2, win0_5.index t a = 0 ∧ win0_5.xsize (grid0.coords t) a = 1))

/-- Result array 0 after the run: the running total of the tile numbers after the last point. -/
abbrev countArr (c : Dev nD) : Buf (Elt Ideal) ((c : Thread nD τ).loc main_v0_0) := fun _ => running (countAt m c) 25

theorem flushed_2 (c : Dev nD) (t : Fin cfg0.N) (hf : (cfg0.win 2).flush t = true) :
    (dats m 0 c).flushed 2 t = ((cfg0.win 2).blk t).view.read (Elt Ideal) (countArr m c) := by
  have hN : cfg0.N = 26 := N_0
  have h25 : t.val = 25 := by have := (flush0_2 t).mp hf; have := t.isLt; omega
  show (cfg0.win 2).cut (grid0.coords t) ((dats m 0 c).after 2 t) = _
  rw [after0_2, totals_after, h25]
  have hz' : (fun a => win0_2.index t a * main_v0_0.ty.shape.size a) = fun _ => 0 :=
    funext fun a => by rw [((out_blocks t).1 a).1, Nat.zero_mul]
  exact (Memref.read_access_unit_zero (Elt Ideal) main_v0_0 hz' (fun a => by rw [congrFun hz' a]; simp) (countArr m c)).symm

theorem final_2 (c : Dev nD) : (dats m 0 c).arrAt 2 cfg0.N = countArr m c := by
  obtain ⟨t, ht⟩ := exists_last
  exact (dats m 0 c).arrAt_eq_of_cover 2 (countArr m c) (flushed_2 m c) fun i =>
    ⟨t, (flush0_2 t).mpr (by rw [ht]), by
      show i ∈ ((View.whole main_v0_0).slice (win0_2.rect t)).set
      rw [View.set_slice_whole, Rect.mem_set_unit]
      intro a
      have hi : (i a : Nat) < 1 := by
        match a with
        | ⟨0, _⟩ => exact (i 0).isLt
        | ⟨1, _⟩ => exact (i 1).isLt
      show win0_2.index t a * win0_2.size a ≤ (i a : Nat) ∧ (i a : Nat) < win0_2.index t a * win0_2.size a + win0_2.xsize (grid0.coords t) a
      rw [((out_blocks t).1 a).1, ((out_blocks t).1 a).2]
      omega⟩

/-- Result array 1 after the run: the running total of the tile numbers after the last point. -/
abbrev boxArr (c : Dev nD) : Buf (Elt Ideal) ((c : Thread nD τ).loc main_v0_1) := fun _ => running (boxAt m c) 25

theorem flushed_3 (c : Dev nD) (t : Fin cfg0.N) (hf : (cfg0.win 3).flush t = true) :
    (dats m 0 c).flushed 3 t = ((cfg0.win 3).blk t).view.read (Elt Ideal) (boxArr m c) := by
  have hN : cfg0.N = 26 := N_0
  have h25 : t.val = 25 := by have := (flush0_3 t).mp hf; have := t.isLt; omega
  show (cfg0.win 3).cut (grid0.coords t) ((dats m 0 c).after 3 t) = _
  rw [after0_3, totals_after, h25]
  have hz' : (fun a => win0_3.index t a * main_v0_1.ty.shape.size a) = fun _ => 0 :=
    funext fun a => by rw [((out_blocks t).2.1 a).1, Nat.zero_mul]
  exact (Memref.read_access_unit_zero (Elt Ideal) main_v0_1 hz' (fun a => by rw [congrFun hz' a]; simp) (boxArr m c)).symm

theorem final_3 (c : Dev nD) : (dats m 0 c).arrAt 3 cfg0.N = boxArr m c := by
  obtain ⟨t, ht⟩ := exists_last
  exact (dats m 0 c).arrAt_eq_of_cover 3 (boxArr m c) (flushed_3 m c) fun i =>
    ⟨t, (flush0_3 t).mpr (by rw [ht]), by
      show i ∈ ((View.whole main_v0_1).slice (win0_3.rect t)).set
      rw [View.set_slice_whole, Rect.mem_set_unit]
      intro a
      have hi : (i a : Nat) < 1 := by
        match a with
        | ⟨0, _⟩ => exact (i 0).isLt
        | ⟨1, _⟩ => exact (i 1).isLt
      show win0_3.index t a * win0_3.size a ≤ (i a : Nat) ∧ (i a : Nat) < win0_3.index t a * win0_3.size a + win0_3.xsize (grid0.coords t) a
      rw [((out_blocks t).2.1 a).1, ((out_blocks t).2.1 a).2]
      omega⟩

/-- Result array 2 after the run: the running total of the tile numbers after the last point. -/
abbrev bceArr (c : Dev nD) : Buf (Elt Ideal) ((c : Thread nD τ).loc main_v0_2) := fun _ => running (bceAt m c) 25

theorem flushed_4 (c : Dev nD) (t : Fin cfg0.N) (hf : (cfg0.win 4).flush t = true) :
    (dats m 0 c).flushed 4 t = ((cfg0.win 4).blk t).view.read (Elt Ideal) (bceArr m c) := by
  have hN : cfg0.N = 26 := N_0
  have h25 : t.val = 25 := by have := (flush0_4 t).mp hf; have := t.isLt; omega
  show (cfg0.win 4).cut (grid0.coords t) ((dats m 0 c).after 4 t) = _
  rw [after0_4, totals_after, h25]
  have hz' : (fun a => win0_4.index t a * main_v0_2.ty.shape.size a) = fun _ => 0 :=
    funext fun a => by rw [((out_blocks t).2.2.1 a).1, Nat.zero_mul]
  exact (Memref.read_access_unit_zero (Elt Ideal) main_v0_2 hz' (fun a => by rw [congrFun hz' a]; simp) (bceArr m c)).symm

theorem final_4 (c : Dev nD) : (dats m 0 c).arrAt 4 cfg0.N = bceArr m c := by
  obtain ⟨t, ht⟩ := exists_last
  exact (dats m 0 c).arrAt_eq_of_cover 4 (bceArr m c) (flushed_4 m c) fun i =>
    ⟨t, (flush0_4 t).mpr (by rw [ht]), by
      show i ∈ ((View.whole main_v0_2).slice (win0_4.rect t)).set
      rw [View.set_slice_whole, Rect.mem_set_unit]
      intro a
      have hi : (i a : Nat) < 1 := by
        match a with
        | ⟨0, _⟩ => exact (i 0).isLt
        | ⟨1, _⟩ => exact (i 1).isLt
      show win0_4.index t a * win0_4.size a ≤ (i a : Nat) ∧ (i a : Nat) < win0_4.index t a * win0_4.size a + win0_4.xsize (grid0.coords t) a
      rw [((out_blocks t).2.2.1 a).1, ((out_blocks t).2.2.1 a).2]
      omega⟩

/-- Result array 3 after the run: the running total of the tile numbers after the last point. -/
abbrev bgArr (c : Dev nD) : Buf (Elt Ideal) ((c : Thread nD τ).loc main_v0_3) := fun _ => running (bgAt m c) 25

theorem flushed_5 (c : Dev nD) (t : Fin cfg0.N) (hf : (cfg0.win 5).flush t = true) :
    (dats m 0 c).flushed 5 t = ((cfg0.win 5).blk t).view.read (Elt Ideal) (bgArr m c) := by
  have hN : cfg0.N = 26 := N_0
  have h25 : t.val = 25 := by have := (flush0_5 t).mp hf; have := t.isLt; omega
  show (cfg0.win 5).cut (grid0.coords t) ((dats m 0 c).after 5 t) = _
  rw [after0_5, totals_after, h25]
  have hz' : (fun a => win0_5.index t a * main_v0_3.ty.shape.size a) = fun _ => 0 :=
    funext fun a => by rw [((out_blocks t).2.2.2 a).1, Nat.zero_mul]
  exact (Memref.read_access_unit_zero (Elt Ideal) main_v0_3 hz' (fun a => by rw [congrFun hz' a]; simp) (bgArr m c)).symm

theorem final_5 (c : Dev nD) : (dats m 0 c).arrAt 5 cfg0.N = bgArr m c := by
  obtain ⟨t, ht⟩ := exists_last
  exact (dats m 0 c).arrAt_eq_of_cover 5 (bgArr m c) (flushed_5 m c) fun i =>
    ⟨t, (flush0_5 t).mpr (by rw [ht]), by
      show i ∈ ((View.whole main_v0_3).slice (win0_5.rect t)).set
      rw [View.set_slice_whole, Rect.mem_set_unit]
      intro a
      have hi : (i a : Nat) < 1 := by
        match a with
        | ⟨0, _⟩ => exact (i 0).isLt
        | ⟨1, _⟩ => exact (i 1).isLt
      show win0_5.index t a * win0_5.size a ≤ (i a : Nat) ∧ (i a : Nat) < win0_5.index t a * win0_5.size a + win0_5.xsize (grid0.coords t) a
      rw [((out_blocks t).2.2.2 a).1, ((out_blocks t).2.2.2 a).2]
      omega⟩

/-! ## The lines after the region -/

/-- The loss the kernel returns, from the four running totals after the last point. -/
abbrev kernelLoss (c : Dev nD) : EReal :=
  loss (running (countAt m c) 25) (running (boxAt m c) 25) (running (bceAt m c) 25) (running (bgAt m c) 25)

/-- After the lines that follow the region the result buffer holds the loss of the four totals: the four result
    arrays, each a constant array at its running total, combined (`tail_after`, `hostTail_const`). -/
theorem tail_value (c : Dev nD) :
    Pipeline.afterTail₀ cfgs (dats m) 0 (V0 m) [hostOps1] c main_v15 = fun _ => kernelLoss m c := by
  have w2 : Pipeline.withArrays (cfgs 0).spec c (V0 m c) (fun w => (dats m 0 c).arrAt w (cfgs 0).N) (Proc.devRef .tc main_v0_0)
      = (fun _ => running (countAt m c) 25 : Buf (Elt Ideal) ((c : Thread nD τ).loc main_v0_0)) :=
    (Pipeline.withArrays_arr (cfgs 0).spec launch0.win.arr_inj c (V0 m c) (fun w => (dats m 0 c).arrAt w (cfgs 0).N) 2).trans (final_2 m c)
  have w3 : Pipeline.withArrays (cfgs 0).spec c (V0 m c) (fun w => (dats m 0 c).arrAt w (cfgs 0).N) (Proc.devRef .tc main_v0_1)
      = (fun _ => running (boxAt m c) 25 : Buf (Elt Ideal) ((c : Thread nD τ).loc main_v0_1)) :=
    (Pipeline.withArrays_arr (cfgs 0).spec launch0.win.arr_inj c (V0 m c) (fun w => (dats m 0 c).arrAt w (cfgs 0).N) 3).trans (final_3 m c)
  have w4 : Pipeline.withArrays (cfgs 0).spec c (V0 m c) (fun w => (dats m 0 c).arrAt w (cfgs 0).N) (Proc.devRef .tc main_v0_2)
      = (fun _ => running (bceAt m c) 25 : Buf (Elt Ideal) ((c : Thread nD τ).loc main_v0_2)) :=
    (Pipeline.withArrays_arr (cfgs 0).spec launch0.win.arr_inj c (V0 m c) (fun w => (dats m 0 c).arrAt w (cfgs 0).N) 4).trans (final_4 m c)
  have w5 : Pipeline.withArrays (cfgs 0).spec c (V0 m c) (fun w => (dats m 0 c).arrAt w (cfgs 0).N) (Proc.devRef .tc main_v0_3)
      = (fun _ => running (bgAt m c) 25 : Buf (Elt Ideal) ((c : Thread nD τ).loc main_v0_3)) :=
    (Pipeline.withArrays_arr (cfgs 0).spec launch0.win.arr_inj c (V0 m c) (fun w => (dats m 0 c).arrAt w (cfgs 0).N) 5).trans (final_5 m c)
  unfold Pipeline.afterTail₀
  show StableHlo.after hostOps1 (Pipeline.withArrays (cfgs 0).spec c (V0 m c) (fun w => (dats m 0 c).arrAt w (cfgs 0).N)) (Proc.devRef .tc main_v15) = _
  rw [tail_after, w2, w3, w4, w5]
  exact hostTail_const _ _ _ _

/-- The kernel's run: every weakly fair execution terminates with the result buffer at the loss of the four totals
    and the two arguments unchanged. -/
theorem run : θ_run defs (onTc (τ := τ) (main (F := Ideal))) ⟨m, fun _ => 0, ρ⟩ fun r => ∀ c : Dev nD,
      r.2.mem ((c.tc : Thread nD τ).loc main_v15) = (fun _ => kernelLoss m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v15 (Pipeline.mem_restRefs_of main_v15 rfl (fun w => by fin_cases w <;> decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Totals

end
-- ==== Proof.Bridge.lean ====
import proofs.«135349_j68066641707785_1_alg».proof.Proof.Result

noncomputable section

open scoped BigOperators
open Idealize.ShloMosaic Idealize.ShloMosaic.TcCoe Idealize.SL.Sem
open Idealize.ShloMosaic.Pipeline (Dat)

/-! # The running totals are the totals over the whole arrays

At point `t` each input window holds tile `t` of its array: rows 0–127, columns 1664·t … 1664·t + 1663, all five
channels. So a tile's number is the sum of the cell contributions over those columns, and the sum of the 26 tile
numbers is the sum over all 43264 columns (`Cert.DetLoss.sum_tiles2`, `sum_tiles3`). -/

namespace Cert.KernelIdeal.Totals

open Cert.KernelIdeal Cert.KernelIdeal.Gen Cert.DetLoss Idealize.ShloMosaic.ValueIdx

variable (m : (ℓ : Loc nD τ sig) → Buf (Elt Ideal) ℓ) (ρ : Dev nD → PrngReg)

/-- The running total after the last of `N = 26` steps, for numbers given per point of a grid of `N` points. -/
theorem running_last_cast {N : ℕ} (hN : N = 26) (p : Fin N → EReal) :
    running (fun n => if h : n < N then p ⟨n, h⟩ else 0) 25 = ∑ t : Fin 26, p (Fin.cast hN.symm t) := by
  subst hN; exact running_last p

/-- Both input windows move along the column axis only: block index (0, t, 0) at point `t`. -/
theorem in_blocks : ∀ t : Fin cfg0.N,
    (win0_0.index t 0 = 0 ∧ win0_0.index t 1 = t.val ∧ win0_0.index t 2 = 0)
    ∧ (win0_1.index t 0 = 0 ∧ win0_1.index t 1 = t.val ∧ win0_1.index t 2 = 0) :=
  (by decide +kernel : ∀ t : Fin grid0.N,
    (win0_0.index t 0 = 0 ∧ win0_0.index t 1 = t.val ∧ win0_0.index t 2 = 0)
    ∧ (win0_1.index t 0 = 0 ∧ win0_1.index t 1 = t.val ∧ win0_1.index t 2 = 0))

/-- The predictions' block at point `t`, at (r, s, k), is the predictions at (r, 1664·t + s, k). -/
theorem pred_block (c : Dev nD) (t : Fin cfg0.N) (r : Fin 128) (s : Fin 1664) (k : Fin 5) (hn : t.val * 1664 + s.val < 43264) :
    iblk m c 0 t (ix3 r s k) = m ((c : Thread nD τ).loc main_arg0) (ix3 r ⟨t.val * 1664 + s.val, hn⟩ k) := by
  have hi := (in_blocks t).1
  unfold iblk
  rw [View.read_apply]
  show m ((c : Thread nD τ).loc main_arg0) _ = m ((c : Thread nD τ).loc main_arg0) _
  congr 1
  funext a
  apply Fin.ext
  match a with
  | ⟨0, _⟩ => show win0_0.index t 0 * 128 + 1 * r.val = r.val; rw [hi.1]; omega
  | ⟨1, _⟩ => show win0_0.index t 1 * 1664 + 1 * s.val = t.val * 1664 + s.val; rw [hi.2.1]; omega
  | ⟨2, _⟩ => show win0_0.index t 2 * 5 + 1 * k.val = k.val; rw [hi.2.2]; omega

/-- The labels' block likewise. -/
theorem label_block (c : Dev nD) (t : Fin cfg0.N) (r : Fin 128) (s : Fin 1664) (k : Fin 5) (hn : t.val * 1664 + s.val < 43264) :
    iblk m c 1 t (ix3 r s k) = m ((c : Thread nD τ).loc main_arg1) (ix3 r ⟨t.val * 1664 + s.val, hn⟩ k) := by
  have hi := (in_blocks t).2
  unfold iblk
  rw [View.read_apply]
  show m ((c : Thread nD τ).loc main_arg1) _ = m ((c : Thread nD τ).loc main_arg1) _
  congr 1
  funext a
  apply Fin.ext
  match a with
  | ⟨0, _⟩ => show win0_1.index t 0 * 128 + 1 * r.val = r.val; rw [hi.1]; omega
  | ⟨1, _⟩ => show win0_1.index t 1 * 1664 + 1 * s.val = t.val * 1664 + s.val; rw [hi.2.1]; omega
  | ⟨2, _⟩ => show win0_1.index t 2 * 5 + 1 * k.val = k.val; rw [hi.2.2]; omega

/-- Point `t` of the 26, as a point of the grid. -/
abbrev pt (t : Fin 26) : Fin cfg0.N := Fin.cast N_0.symm t

theorem col_lt (t : Fin 26) (s : Fin 1664) : (pt t).val * 1664 + s.val < 43264 := by
  have := t.isLt; have := s.isLt; show t.val * 1664 + s.val < 43264; omega

theorem count_total (c : Dev nD) :
    running (countAt m c) 25 = Cert.DetLoss.count (m ((c : Thread nD τ).loc main_arg1)) := by
  refine (running_last_cast N_0 fun t => countTile (iblk m c 1 t)).trans ?_
  unfold Cert.DetLoss.count
  refine Eq.trans ?_ (sum_tiles2 fun r n => sel (m ((c : Thread nD τ).loc main_arg1) (ix3 r n (0 : Fin 5))))
  exact Finset.sum_congr rfl fun t _ => Finset.sum_congr rfl fun i _ =>
    congrArg sel (label_block m c (pt t) (i 0) (i 1) 0 (col_lt t (i 1)))

theorem box_total (c : Dev nD) :
    running (boxAt m c) 25 = Cert.DetLoss.box (m ((c : Thread nD τ).loc main_arg0)) (m ((c : Thread nD τ).loc main_arg1)) := by
  refine (running_last_cast N_0 fun t => boxTile (iblk m c 0 t) (iblk m c 1 t)).trans ?_
  unfold Cert.DetLoss.box
  refine Eq.trans ?_ (sum_tiles3 fun r n k => boxCell (m ((c : Thread nD τ).loc main_arg0) (ix3 r n (boxChan k)))
    (m ((c : Thread nD τ).loc main_arg1) (ix3 r n (boxChan k))) (m ((c : Thread nD τ).loc main_arg1) (ix3 r n (0 : Fin 5))))
  exact Finset.sum_congr rfl fun t _ => Finset.sum_congr rfl fun i _ =>
    congr (congr (congrArg boxCell (pred_block m c (pt t) (i 0) (i 1) (boxChan (i 2)) (col_lt t (i 1))))
      (label_block m c (pt t) (i 0) (i 1) (boxChan (i 2)) (col_lt t (i 1))))
      (label_block m c (pt t) (i 0) (i 1) 0 (col_lt t (i 1)))

theorem bce_total (c : Dev nD) :
    running (bceAt m c) 25 = Cert.DetLoss.bce (m ((c : Thread nD τ).loc main_arg0)) (m ((c : Thread nD τ).loc main_arg1)) := by
  refine (running_last_cast N_0 fun t => bceTile (iblk m c 0 t) (iblk m c 1 t)).trans ?_
  unfold Cert.DetLoss.bce
  refine Eq.trans ?_ (sum_tiles2 fun r n => bceCell (m ((c : Thread nD τ).loc main_arg0) (ix3 r n (0 : Fin 5)))
    (m ((c : Thread nD τ).loc main_arg1) (ix3 r n (0 : Fin 5))))
  exact Finset.sum_congr rfl fun t _ => Finset.sum_congr rfl fun i _ =>
    congr (congrArg bceCell (pred_block m c (pt t) (i 0) (i 1) 0 (col_lt t (i 1))))
      (label_block m c (pt t) (i 0) (i 1) 0 (col_lt t (i 1)))

theorem bg_total (c : Dev nD) :
    running (bgAt m c) 25 = Cert.DetLoss.bg (m ((c : Thread nD τ).loc main_arg0)) := by
  refine (running_last_cast N_0 fun t => bgTile (iblk m c 0 t)).trans ?_
  unfold Cert.DetLoss.bg
  refine Eq.trans ?_ (sum_tiles2 fun r n => bgCell (m ((c : Thread nD τ).loc main_arg0) (ix3 r n (0 : Fin 5))))
  exact Finset.sum_congr rfl fun t _ => Finset.sum_congr rfl fun i _ =>
    congrArg bgCell (pred_block m c (pt t) (i 0) (i 1) 0 (col_lt t (i 1)))

/-- The loss of the four running totals is the loss of the two argument arrays. -/
theorem kernel_total (c : Dev nD) :
    kernelLoss m c = total (m ((c : Thread nD τ).loc main_arg0)) (m ((c : Thread nD τ).loc main_arg1)) := by
  unfold kernelLoss total
  rw [count_total, box_total, bce_total, bg_total]

/-- The kernel's run, with its result named as a function of the two arguments. -/
theorem run_total : θ_run defs (onTc (τ := τ) (main (F := Ideal))) ⟨m, fun _ => 0, ρ⟩ fun r => ∀ c : Dev nD,
      r.2.mem ((c.tc : Thread nD τ).loc main_v15)
        = (fun _ => total (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by rw [kernel_total]), (h c).2⟩) (run m ρ)

end Cert.KernelIdeal.Totals

end
-- ==== Proof.RefSide.lean ====
import proofs.«135349_j68066641707785_1_alg».proof.Proof.Gen.ReferenceIdeal.Read
import proofs.«135349_j68066641707785_1_alg».proof.Proof.Spec

noncomputable section

open scoped BigOperators
open Idealize.ShloMosaic Idealize.ShloMosaic.TcCoe Idealize.SL.Sem
open Idealize.ShloMosaic.Pipeline (Dat)

/-! # The reference computes the loss of its two arguments

The reference slices the confidence channel and the box channels out of the whole arrays, forms the same per-cell
terms, sums each over all cells in one reduction, and combines the four sums. Stage by stage its value at an index
is read from its operands at an index; what is left here is to name the positions: the confidence slice reshaped
to 128 × 43264 at (r, n) is the argument at (r, n, channel 0), the box slice at (r, n, k) the argument at
(r, n, channel 1 + k). -/

namespace Cert.ReferenceIdeal.Loss

open Cert.ReferenceIdeal Cert.ReferenceIdeal.Read Cert.DetLoss Idealize.ShloMosaic.ValueIdx

/-- An argument array at the extended reals. -/
abbrev In : Type := (⟨S128x43264x5, .f32⟩ : BufTy).Contents (Elt Ideal)

/-! ## Positions -/

theorem conf_label (j : S128x43264.Idx) : idx_main_v0 (idx_main_v1 j) = ix3 (j 0) (j 1) (0 : Fin 5) := by
  have h0 : (j 0).val < 128 := (j 0).isLt
  have h1 : (j 1).val < 43264 := (j 1).isLt
  funext a
  match a with
  | ⟨0, _⟩ => exact Fin.ext (by show ((j 0).val * 43264 + (j 1).val) / 43264 = (j 0).val; omega)
  | ⟨1, _⟩ => exact Fin.ext (by show ((j 0).val * 43264 + (j 1).val) / 1 % 43264 = (j 1).val; omega)
  | ⟨2, _⟩ => rfl

theorem conf_pred (j : S128x43264.Idx) : idx_main_v19 (idx_main_v20 j) = ix3 (j 0) (j 1) (0 : Fin 5) := by
  have h0 : (j 0).val < 128 := (j 0).isLt
  have h1 : (j 1).val < 43264 := (j 1).isLt
  funext a
  match a with
  | ⟨0, _⟩ => exact Fin.ext (by show ((j 0).val * 43264 + (j 1).val) / 43264 = (j 0).val; omega)
  | ⟨1, _⟩ => exact Fin.ext (by show ((j 0).val * 43264 + (j 1).val) / 1 % 43264 = (j 1).val; omega)
  | ⟨2, _⟩ => rfl

theorem conf_label' (j : S128x43264.Idx) : idx_main_v21 (idx_main_v22 j) = ix3 (j 0) (j 1) (0 : Fin 5) := by
  have h0 : (j 0).val < 128 := (j 0).isLt
  have h1 : (j 1).val < 43264 := (j 1).isLt
  funext a
  match a with
  | ⟨0, _⟩ => exact Fin.ext (by show ((j 0).val * 43264 + (j 1).val) / 43264 = (j 0).val; omega)
  | ⟨1, _⟩ => exact Fin.ext (by show ((j 0).val * 43264 + (j 1).val) / 1 % 43264 = (j 1).val; omega)
  | ⟨2, _⟩ => rfl

theorem box_pred (j : S128x43264x4.Idx) : idx_main_v8 j = ix3 (j 0) (j 1) (boxChan (j 2)) := by
  funext a
  match a with
  | ⟨0, _⟩ => rfl
  | ⟨1, _⟩ => rfl
  | ⟨2, _⟩ => rfl

theorem box_label (j : S128x43264x4.Idx) : idx_main_v9 j = ix3 (j 0) (j 1) (boxChan (j 2)) := by
  funext a
  match a with
  | ⟨0, _⟩ => rfl
  | ⟨1, _⟩ => rfl
  | ⟨2, _⟩ => rfl

/-- The mask repeated along the four box channels reads (r, n). -/
theorem mask_rep (j : S128x43264x4.Idx) : idx_main_v12 (idx_main_v13 j) = ix2 (j 0) (j 1) := by
  funext a
  match a with
  | ⟨0, _⟩ => rfl
  | ⟨1, _⟩ => rfl

/-! ## The per-cell terms -/

theorem mask_ref (y : In) (j : S128x43264.Idx) : val_main_v4 (F := Ideal) y j = sel (y (ix3 (j 0) (j 1) (0 : Fin 5))) := by
  rw [val_main_v4_apply, val_main_v3_apply, val_main_v1_apply, val_main_v0_apply, val_main_v2_apply, val_main_cst_apply,
    conf_label j]
  rfl

theorem box_ref_cell (x y : In) (j : S128x43264x4.Idx) :
    val_main_v14 (F := Ideal) x y j
      = boxCell (x (ix3 (j 0) (j 1) (boxChan (j 2)))) (y (ix3 (j 0) (j 1) (boxChan (j 2)))) (y (ix3 (j 0) (j 1) (0 : Fin 5))) := by
  have k : val_main_v4 (F := Ideal) y (idx_main_v12 (idx_main_v13 j)) = sel (y (ix3 (j 0) (j 1) (0 : Fin 5))) :=
    (congrArg (val_main_v4 (F := Ideal) y) (mask_rep j)).trans (mask_ref y (ix2 (j 0) (j 1)))
  rw [val_main_v14_apply, val_main_v11_apply, val_main_v10_apply, val_main_v8_apply, val_main_v9_apply, val_main_v13_apply,
    val_main_v12_apply, k, box_pred j, box_label j]
  rfl

theorem bce_ref_cell (x y : In) (j : S128x43264.Idx) :
    val_main_v32 (F := Ideal) x y j = bceCell (x (ix3 (j 0) (j 1) (0 : Fin 5))) (y (ix3 (j 0) (j 1) (0 : Fin 5))) := by
  rw [val_main_v32_apply, val_main_v31_apply, val_main_v30_apply, val_main_v24_apply, val_main_v29_apply, val_main_v23_apply,
    val_main_v26_apply, val_main_v28_apply, val_main_v27_apply, val_main_v25_apply, val_main_cst_5_apply,
    val_main_v22_apply, val_main_v21_apply, val_main_v20_apply, val_main_v19_apply, conf_pred j, conf_label' j, mask_ref y j]
  rfl

theorem bg_ref_cell (x : In) (j : S128x43264.Idx) :
    val_main_v38 (F := Ideal) x j = bgCell (x (ix3 (j 0) (j 1) (0 : Fin 5))) := by
  rw [val_main_v38_apply, val_main_v37_apply, val_main_v36_apply, val_main_v20_apply, val_main_v19_apply, conf_pred j]
  rfl

/-! ## The four totals -/

theorem count_ref (y : In) (i : S_.Idx) : val_main_v5 (F := Ideal) y i = Cert.DetLoss.count y := by
  rw [val_main_v5_apply]
  show zero + _ = _
  rw [zero_eq, zero_add]
  unfold Cert.DetLoss.count
  exact Finset.sum_congr rfl fun j _ => mask_ref y j

theorem box_ref (x y : In) (i : S_.Idx) : val_main_v15 (F := Ideal) x y i = box x y := by
  rw [val_main_v15_apply]
  show zero + _ = _
  rw [zero_eq, zero_add]
  unfold box
  exact Finset.sum_congr rfl fun j _ => box_ref_cell x y j

theorem bce_ref (x y : In) (i : S_.Idx) : val_main_v33 (F := Ideal) x y i = bce x y := by
  rw [val_main_v33_apply]
  show zero + _ = _
  rw [zero_eq, zero_add]
  unfold bce
  exact Finset.sum_congr rfl fun j _ => bce_ref_cell x y j

theorem bg_ref (x : In) (i : S_.Idx) : val_main_v39 (F := Ideal) x i = bg x := by
  rw [val_main_v39_apply]
  show zero + _ = _
  rw [zero_eq, zero_add]
  unfold bg
  exact Finset.sum_congr rfl fun j _ => bg_ref_cell x j

/-! ## The result -/

/-- The reference's result is the loss of its two arguments. -/
theorem result_ref (x y : In) (i : S_.Idx) : val_main_v43 (F := Ideal) x y i = total x y := by
  rw [val_main_v43_apply, val_main_v42_apply, val_main_v41_apply, val_main_v40_apply, val_main_v18_apply, val_main_v35_apply,
    val_main_v16_apply, val_main_v17_apply, val_main_v34_apply, val_main_v7_apply, val_main_v6_apply, val_main_cst_1_apply,
    val_main_cst_2_apply, val_main_cst_4_apply, val_main_cst_8_apply, val_main_cst_9_apply,
    count_ref y i, box_ref x y i, bce_ref x y i, bg_ref x i]
  rfl

end Cert.ReferenceIdeal.Loss

end
-- ==== Proof.lean ====
/- The claim: a detection loss computed by one tiled reduction kernel equals its plain array-level definition.

   Predictions and labels are 128 × 43264 × 5 arrays (per cell a confidence and four box coordinates). The loss is
   (1 + 1/count)·box/(4·count) + (1 + 1/count)·bce/count + (1/2)·bg/5537792 of four totals over the cells: the count of
   cells whose label confidence exceeds 1/2, their squared box error, their cross-entropy, and −log(1 − p) over all
   cells (Proof/Spec.lean states them). The reference sums each total over the whole array at once. The kernel
   walks 26 column tiles of width 1664, adds one tile's share to each of four running totals per step
   (Proof/Pieces.lean, Proof/TileValues.lean, Proof/Accumulate.lean), writes the totals back after the last step and
   combines them after the region (Proof/Result.lean). Over the extended reals sums commute and associate with no
   side condition, so the 26 tile shares add up to the whole-array total (Proof/Bridge.lean), and the one
   difference in the final combination — halving the background total before or after dividing it by the number of
   cells — is associativity of the product once division by a nonzero real is written as a product. No input
   needs to be finite for any of this: the precondition is never opened.

   The three frames: the two kernel programs' are the generated frame certificates; the reference has no kernel, and
   its frame is its run with the result dropped. The idealization rewrote nothing, so `preserves` is `True`. -/
import proofs.«135349_j68066641707785_1_alg».proof.Defs
import proofs.«135349_j68066641707785_1_alg».proof.Proof.Gen.Kernel
import proofs.«135349_j68066641707785_1_alg».proof.Proof.Gen.Kernel.Skeleton
import proofs.«135349_j68066641707785_1_alg».proof.Proof.Gen.Kernel.Launch
import proofs.«135349_j68066641707785_1_alg».proof.Proof.Gen.Kernel.Points
import proofs.«135349_j68066641707785_1_alg».proof.Proof.Gen.Kernel.Frame
import proofs.«135349_j68066641707785_1_alg».proof.Proof.Gen.KernelIdeal
import proofs.«135349_j68066641707785_1_alg».proof.Proof.Gen.KernelIdeal.Skeleton
import proofs.«135349_j68066641707785_1_alg».proof.Proof.Gen.KernelIdeal.Launch
import proofs.«135349_j68066641707785_1_alg».proof.Proof.Gen.KernelIdeal.Points
import proofs.«135349_j68066641707785_1_alg».proof.Proof.Gen.KernelIdeal.Frame
import proofs.«135349_j68066641707785_1_alg».proof.Proof.Gen.ReferenceIdeal
import proofs.«135349_j68066641707785_1_alg».proof.Proof.Gen.ReferenceIdeal.Run
import proofs.«135349_j68066641707785_1_alg».proof.Proof.Gen.ReferenceIdeal.Read
import proofs.«135349_j68066641707785_1_alg».proof.Proof.Gen.Pre_finite_inputs
import proofs.«135349_j68066641707785_1_alg».proof.Proof.Bridge
import proofs.«135349_j68066641707785_1_alg».proof.Proof.RefSide
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the loss of the two arguments: the kernel by `run_total`, the reference by `result_ref`. -/
theorem algebraic : Cert.algebraic_KernelIdeal_ReferenceIdeal := by
  intro m ρ m' ρ' _ hagree
  refine ⟨fun c => (fun _ => Cert.DetLoss.total
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.Totals.run_total m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v43_eq, (hagree c).1, (hagree c).2]
  funext i
  exact Cert.ReferenceIdeal.Loss.result_ref _ _ i

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
